-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x600000 32) (main_arg2 : FVec F S600000 .f32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S1x600000 : Shape := ⟨2, ![1, 600000]⟩
abbrev S5000x128 : Shape := ⟨2, ![5000, 128]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S6000x128 : Shape := ⟨2, ![6000, 128]⟩
abbrev S6000x1 : Shape := ⟨2, ![6000, 1]⟩
abbrev S1x128 : Shape := ⟨2, ![1, 128]⟩
abbrev S5000x1 : Shape := ⟨2, ![5000, 1]⟩

abbrev nBuf : Space → Nat
  | .hbm => 119
  | .vmem => 48
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S50000x128, .f32⟩
  | .hbm, ⟨12, _⟩ => ⟨S_, .f32⟩
  | .hbm, ⟨13, _⟩ => ⟨S50000, .f32⟩
  | .hbm, ⟨14, _⟩ => ⟨S600000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S600000, .f32⟩
  | .hbm, ⟨37, _⟩ => ⟨S600000x1, .f32⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S600000, .f32⟩
  | .hbm, ⟨47, _⟩ => ⟨S600000x1, .f32⟩
  | .hbm, ⟨48, _⟩ => ⟨S600000x1, .f32⟩
  | .hbm, ⟨49, _⟩ => ⟨S_, .i32⟩
  | .hbm, ⟨50, _⟩ => ⟨S600000, .i32⟩
  | .hbm, ⟨51, _⟩ => ⟨S600000, .i1⟩
  | .hbm, ⟨52, _⟩ => ⟨S_, .i32⟩
  | .hbm, ⟨53, _⟩ => ⟨S600000, .i32⟩
  | .hbm, ⟨54, _⟩ => ⟨S600000, .i32⟩
  | .hbm, ⟨55, _⟩ => ⟨S600000, .i32⟩
  | .hbm, ⟨56, _⟩ => ⟨S600000x1, .i32⟩
  | .hbm, ⟨57, _⟩ => ⟨S600000x128, .f32⟩
  | .hbm, ⟨58, _⟩ => ⟨S600000x128, .f32⟩
  | .hbm, ⟨59, _⟩ => ⟨S_, .f32⟩
  | .hbm, ⟨60, _⟩ => ⟨S50000x128, .f32⟩
  | .hbm, ⟨61, _⟩ => ⟨S600000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000, .f32⟩
  | .hbm, ⟨68, _⟩ => ⟨S600000x1, .i32⟩
  | .hbm, ⟨69, _⟩ => ⟨S50000, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S_, .f32⟩
  | .hbm, ⟨74, _⟩ => ⟨S50000, .f32⟩
  | .hbm, ⟨75, _⟩ => ⟨S50000, .i1⟩
  | .hbm, ⟨76, _⟩ => ⟨S50000, .f32⟩
  | .hbm, ⟨77, _⟩ => ⟨S_, .f32⟩
  | .hbm, ⟨78, _⟩ => ⟨S_, .f32⟩
  | .hbm, ⟨79, _⟩ => ⟨S50000, .f32⟩
  | .hbm, ⟨80, _⟩ => ⟨S50000, .f32⟩
  | .hbm, ⟨81, _⟩ => ⟨S50000x1, .f32⟩
  | .hbm, ⟨82, _⟩ => ⟨S_, .i32⟩
  | .hbm, ⟨83, _⟩ => ⟨S600000, .i32⟩
  | .hbm, ⟨84, _⟩ => ⟨S600000, .i1⟩
  | .hbm, ⟨85, _⟩ => ⟨S_, .i32⟩
  | .hbm, ⟨86, _⟩ => ⟨S600000, .i32⟩
  | .hbm, ⟨87, _⟩ => ⟨S600000, .i32⟩
  | .hbm, ⟨88, _⟩ => ⟨S600000, .i32⟩
  | .hbm, ⟨89, _⟩ => ⟨S600000x1, .i32⟩
  | .hbm, ⟨90, _⟩ => ⟨S600000, .f32⟩
  | .hbm, ⟨91, _⟩ => ⟨S600000x1, .f32⟩
  | .hbm, ⟨92, _⟩ => ⟨S_, .i32⟩
  | .hbm, ⟨93, _⟩ => ⟨S600000, .i32⟩
  | .hbm, ⟨94, _⟩ => ⟨S600000, .i1⟩
  | .hbm, ⟨95, _⟩ => ⟨S_, .i32⟩
  | .hbm, ⟨96, _⟩ => ⟨S600000, .i32⟩
  | .hbm, ⟨97, _⟩ => ⟨S600000, .i32⟩
  | .hbm, ⟨98, _⟩ => ⟨S600000, .i32⟩
  | .hbm, ⟨99, _⟩ => ⟨S600000x1, .i32⟩
  | .hbm, ⟨100, _⟩ => ⟨S600000, .f32⟩
  | .hbm, ⟨101, _⟩ => ⟨S600000x1, .f32⟩
  | .hbm, ⟨102, _⟩ => ⟨S600000x1, .f32⟩
  | .hbm, ⟨103, _⟩ => ⟨S_, .i32⟩
  | .hbm, ⟨104, _⟩ => ⟨S600000, .i32⟩
  | .hbm, ⟨105, _⟩ => ⟨S600000, .i1⟩
  | .hbm, ⟨106, _⟩ => ⟨S_, .i32⟩
  | .hbm, ⟨107, _⟩ => ⟨S600000, .i32⟩
  | .hbm, ⟨108, _⟩ => ⟨S600000, .i32⟩
  | .hbm, ⟨109, _⟩ => ⟨S600000, .i32⟩
  | .hbm, ⟨110, _⟩ => ⟨S600000x1, .i32⟩
  | .hbm, ⟨111, _⟩ => ⟨S600000x128, .f32⟩
  | .hbm, ⟨112, _⟩ => ⟨S600000x128, .f32⟩
  | .hbm, ⟨113, _⟩ => ⟨S_, .f32⟩
  | .hbm, ⟨114, _⟩ => ⟨S50000x128, .f32⟩
  | .hbm, ⟨115, _⟩ => ⟨S600000x1, .i32⟩
  | .hbm, ⟨116, _⟩ => ⟨S50000x128, .f32⟩
  | .hbm, ⟨117, _⟩ => ⟨S1x128, .f32⟩
  | .hbm, ⟨118, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S6000x128, .f32⟩
  | .local _ .vmem, ⟨6, _⟩ => ⟨S6000x128, .f32⟩
  | .local _ .vmem, ⟨7, _⟩ => ⟨S6000x1, .f32⟩
  | .local _ .vmem, ⟨8, _⟩ => ⟨S6000x1, .f32⟩
  | .local _ .vmem, ⟨9, _⟩ => ⟨S6000x1, .f32⟩
  | .local _ .vmem, ⟨10, _⟩ => ⟨S6000x1, .f32⟩
  | .local _ .vmem, ⟨11, _⟩ => ⟨S6000x1, .f32⟩
  | .local _ .vmem, ⟨12, _⟩ => ⟨S6000x1, .f32⟩
  | .local _ .vmem, ⟨13, _⟩ => ⟨S6000x128, .f32⟩
  | .local _ .vmem, ⟨14, _⟩ => ⟨S6000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x1, .f32⟩
  | .local _ .vmem, ⟨20, _⟩ => ⟨S5000x1, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S5000x128, .f32⟩
  | .local _ .vmem, ⟨28, _⟩ => ⟨S5000x128, .f32⟩
  | .local _ .vmem, ⟨29, _⟩ => ⟨S6000x128, .f32⟩
  | .local _ .vmem, ⟨30, _⟩ => ⟨S6000x128, .f32⟩
  | .local _ .vmem, ⟨31, _⟩ => ⟨S6000x1, .f32⟩
  | .local _ .vmem, ⟨32, _⟩ => ⟨S6000x1, .f32⟩
  | .local _ .vmem, ⟨33, _⟩ => ⟨S6000x1, .f32⟩
  | .local _ .vmem, ⟨34, _⟩ => ⟨S6000x1, .f32⟩
  | .local _ .vmem, ⟨35, _⟩ => ⟨S6000x1, .f32⟩
  | .local _ .vmem, ⟨36, _⟩ => ⟨S6000x1, .f32⟩
  | .local _ .vmem, ⟨37, _⟩ => ⟨S6000x128, .f32⟩
  | .local _ .vmem, ⟨38, _⟩ => ⟨S6000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x1, .f32⟩
  | .local _ .vmem, ⟨44, _⟩ => ⟨S5000x1, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_12 : Ref sig .tc := ⟨.hbm, 77, rfl⟩
abbrev main_call1_v0 : Ref sig .tc := ⟨.hbm, 78, rfl⟩
abbrev main_call1_v1 : Ref sig .tc := ⟨.hbm, 79, rfl⟩
abbrev main_v54 : Ref sig .tc := ⟨.hbm, 80, rfl⟩
abbrev main_v55 : Ref sig .tc := ⟨.hbm, 81, rfl⟩
abbrev main_c_13 : Ref sig .tc := ⟨.hbm, 82, rfl⟩
abbrev main_v56 : Ref sig .tc := ⟨.hbm, 83, rfl⟩
abbrev main_v57 : Ref sig .tc := ⟨.hbm, 84, rfl⟩
abbrev main_c_14 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_15 : Ref sig .tc := ⟨.hbm, 92, rfl⟩
abbrev main_v64 : Ref sig .tc := ⟨.hbm, 93, rfl⟩
abbrev main_v65 : Ref sig .tc := ⟨.hbm, 94, rfl⟩
abbrev main_c_16 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_17 : Ref sig .tc := ⟨.hbm, 103, rfl⟩
abbrev main_v73 : Ref sig .tc := ⟨.hbm, 104, rfl⟩
abbrev main_v74 : Ref sig .tc := ⟨.hbm, 105, rfl⟩
abbrev main_c_18 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_19 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg3_1 : Ref sig .tc := ⟨.vmem, 36, rfl⟩
abbrev cc4_stg4_0 : Ref sig .tc := ⟨.vmem, 37, rfl⟩
abbrev cc4_stg4_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg2_1 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem3_1 : DmaSem sig := 36
abbrev cc4_sem4_0 : DmaSem sig := 37
abbrev cc4_sem4_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem2_1 : DmaSem sig := 44
abbrev cc5_sem3_0 : DmaSem sig := 45
abbrev cc5_sem4_0 : DmaSem sig := 46
abbrev cc5_sem4_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S6000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S6000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S6000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S6000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S6000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S6000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  bcast_S_S600000 : S_.BroadcastsInDim S600000 (![] : Fin 0 → Fin S600000.rank)
  shapeCasts_S600000_S600000x1 : S600000.ShapeCasts S600000x1
  inb_S6000x1_S6000x1_0_0 : ∀ a, (![0, 0] : Fin 2 → Nat) a + S6000x1.size a ≤ S6000x1.size a
  h_S6000x1 : 0 < S6000x1.numel
  shapeCasts_S6000x1_S6000x1 : S6000x1.ShapeCasts S6000x1
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  broadcasts_S6000x1_S6000x128 : S6000x1.Broadcasts S6000x128
  bcast_S_S50000x128 : S_.BroadcastsInDim S50000x128 (![] : Fin 0 → Fin S50000x128.rank)
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S5000x128_S128x128_S5000x128_1_0_0_1_n_n_wf : DotDims.WF S5000x128 S128x128 S5000x128 [1] [0] [0] [1] [] []
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x128.size a ≤ S600000x128.size a
  hwx1_0 : ∀ i : grid1.Coords, EltTy.bits .f32 = 32 ∨ (Rect.block (s := S600000x128) S6000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x1.size a ≤ S600000x1.size a
  hwx1_1 : ∀ i : grid1.Coords, EltTy.bits .f32 = 32 ∨ (Rect.block (s := S600000x1) S6000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6000x1.size a ≤ S600000x1.size a
  hwx1_2 : ∀ i : grid1.Coords, EltTy.bits .f32 = 32 ∨ (Rect.block (s := S600000x1) S6000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S6000x1.size a ≤ S600000x1.size a
  hwx1_3 : ∀ i : grid1.Coords, EltTy.bits .f32 = 32 ∨ (Rect.block (s := S600000x1) S6000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S6000x128.size a ≤ S600000x128.size a
  hwx1_4 : ∀ i : grid1.Coords, EltTy.bits .f32 = 32 ∨ (Rect.block (s := S600000x128) S6000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6000x128.size a ≤ S600000x128.size a
  hwx4_0 : ∀ i : grid4.Coords, EltTy.bits .f32 = 32 ∨ (Rect.block (s := S600000x128) S6000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S6000x1.size a ≤ S600000x1.size a
  hwx4_1 : ∀ i : grid4.Coords, EltTy.bits .f32 = 32 ∨ (Rect.block (s := S600000x1) S6000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S6000x1.size a ≤ S600000x1.size a
  hwx4_2 : ∀ i : grid4.Coords, EltTy.bits .f32 = 32 ∨ (Rect.block (s := S600000x1) S6000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S6000x1.size a ≤ S600000x1.size a
  hwx4_3 : ∀ i : grid4.Coords, EltTy.bits .f32 = 32 ∨ (Rect.block (s := S600000x1) S6000x1.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S6000x128.size a ≤ S600000x128.size a
  hwx4_4 : ∀ i : grid4.Coords, EltTy.bits .f32 = 32 ∨ (Rect.block (s := S600000x128) S6000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S6000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S6000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S6000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30) S6000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v39) S6000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v43) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v44) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v79) S6000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v63) S6000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v72) S6000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v71) S6000x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v80) S6000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v83) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v45) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v55) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v84) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v85) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S1x600000 : Shape := ⟨2, ![1, 600000]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩

abbrev nBuf : Space → Nat
  | .hbm => 134
  | .vmem => 0
  | .smem => 0
  | _ => 0

abbrev hbmTy0_0 (i : Nat) : BufTy := match i % 128 with
  | 0 => ⟨S50000x128, .f32⟩
  | 1 => ⟨S2x600000, .i32⟩
  | 2 => ⟨S600000, .f32⟩
  | 3 => ⟨S128x128, .f32⟩
  | 4 => ⟨S128, .f32⟩
  | 5 => ⟨S128x128, .f32⟩
  | 6 => ⟨S128, .f32⟩
  | 7 => ⟨S1x600000, .i32⟩
  | 8 => ⟨S600000, .i32⟩
  | 9 => ⟨S1x600000, .i32⟩
  | 10 => ⟨S600000, .i32⟩
  | 11 => ⟨S50000x128, .f32⟩
  | 12 => ⟨S_, .f32⟩
  | 13 => ⟨S50000, .f32⟩
  | 14 => ⟨S600000x1, .i32⟩
  | 15 => ⟨S50000, .f32⟩
  | 16 => ⟨S_, .f32⟩
  | 17 => ⟨S50000, .f32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S600000, .i32⟩
  | 29 => ⟨S600000, .i1⟩
  | 30 => ⟨S_, .i32⟩
  | 31 => ⟨S600000, .i32⟩
  | 32 => ⟨S600000, .i32⟩
  | 33 => ⟨S600000, .i32⟩
  | 34 => ⟨S600000x1, .i32⟩
  | 35 => ⟨S600000, .f32⟩
  | 36 => ⟨S600000, .f32⟩
  | 37 => ⟨S_, .i32⟩
  | 38 => ⟨S600000, .i32⟩
  | 39 => ⟨S600000, .i1⟩
  | 40 => ⟨S_, .i32⟩
  | 41 => ⟨S600000, .i32⟩
  | 42 => ⟨S600000, .i32⟩
  | 43 => ⟨S600000, .i32⟩
  | 44 => ⟨S600000x1, .i32⟩
  | 45 => ⟨S600000, .f32⟩
  | 46 => ⟨S600000, .f32⟩
  | 47 => ⟨S_, .i32⟩
  | 48 => ⟨S600000, .i32⟩
  | 49 => ⟨S600000, .i1⟩
  | 50 => ⟨S_, .i32⟩
  | 51 => ⟨S600000, .i32⟩
  | 52 => ⟨S600000, .i32⟩
  | 53 => ⟨S600000, .i32⟩
  | 54 => ⟨S600000x1, .i32⟩
  | 55 => ⟨S600000x128, .f32⟩
  | 56 => ⟨S600000x1, .f32⟩
  | 57 => ⟨S600000x128, .f32⟩
  | 58 => ⟨S600000x128, .f32⟩
  | 59 => ⟨S_, .f32⟩
  | 60 => ⟨S50000x128, .f32⟩
  | 61 => ⟨S600000x1, .i32⟩
  | 62 => ⟨S50000x128, .f32⟩
  | 63 => ⟨S50000, .f32⟩
  | 64 => ⟨S50000x1, .f32⟩
  | 65 => ⟨S50000x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x128, .f32⟩
  | 75 => ⟨S_, .f32⟩
  | 76 => ⟨S50000, .f32⟩
  | 77 => ⟨S600000x1, .i32⟩
  | 78 => ⟨S50000, .f32⟩
  | 79 => ⟨S_, .f32⟩
  | 80 => ⟨S50000, .f32⟩
  | 81 => ⟨S50000, .f32⟩
  | 82 => ⟨S_, .f32⟩
  | 83 => ⟨S50000, .f32⟩
  | 84 => ⟨S50000, .i1⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S600000, .i32⟩
  | 92 => ⟨S600000, .i1⟩
  | 93 => ⟨S_, .i32⟩
  | 94 => ⟨S600000, .i32⟩
  | 95 => ⟨S600000, .i32⟩
  | 96 => ⟨S600000, .i32⟩
  | 97 => ⟨S600000x1, .i32⟩
  | 98 => ⟨S600000, .f32⟩
  | 99 => ⟨S600000, .f32⟩
  | 100 => ⟨S_, .i32⟩
  | 101 => ⟨S600000, .i32⟩
  | 102 => ⟨S600000, .i1⟩
  | 103 => ⟨S_, .i32⟩
  | 104 => ⟨S600000, .i32⟩
  | 105 => ⟨S600000, .i32⟩
  | 106 => ⟨S600000, .i32⟩
  | 107 => ⟨S600000x1, .i32⟩
  | 108 => ⟨S600000, .f32⟩
  | 109 => ⟨S600000, .f32⟩
  | 110 => ⟨S_, .i32⟩
  | 111 => ⟨S600000, .i32⟩
  | 112 => ⟨S600000, .i1⟩
  | 113 => ⟨S_, .i32⟩
  | 114 => ⟨S600000, .i32⟩
  | 115 => ⟨S600000, .i32⟩
  | 116 => ⟨S600000, .i32⟩
  | 117 => ⟨S600000x1, .i32⟩
  | 118 => ⟨S600000x128, .f32⟩
  | 119 => ⟨S600000x1, .f32⟩
  | 120 => ⟨S600000x128, .f32⟩
  | 121 => ⟨S600000x128, .f32⟩
  | 122 => ⟨S_, .f32⟩
  | 123 => ⟨S50000x128, .f32⟩
  | 124 => ⟨S600000x1, .i32⟩
  | 125 => ⟨S50000x128, .f32⟩
  | 126 => ⟨S50000, .f32⟩
  | 127 => ⟨S50000x1, .f32⟩
  | _ => ⟨S50000x128, .f32⟩

abbrev hbmTy0_1 (i : Nat) : BufTy := match i % 128 with
  | 0 => ⟨S50000x128, .f32⟩
  | 1 => ⟨S50000x128, .f32⟩
  | 2 => ⟨S50000x128, .f32⟩
  | 3 => ⟨S1x128, .f32⟩
  | 4 => ⟨S50000x128, .f32⟩
  | 5 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_cst : Ref sig .tc := ⟨.hbm, 71, rfl⟩
abbrev main_call1_v0 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_c_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_c_17 : Ref sig .tc := ⟨.hbm, 110, rfl⟩
abbrev main_v78 : Ref sig .tc := ⟨.hbm, 111, rfl⟩
abbrev main_v79 : Ref sig .tc := ⟨.hbm, 112, rfl⟩
abbrev main_c_18 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_19 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000 : S_.BroadcastsInDim S50000 (![] : Fin 0 → Fin S50000.rank)
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.RunNamed.lean ====
/-
  The run of the six-region program with its result array NAMED. The program's @main is fifteen segments: a stretch of
  host operations or one kernel region each. Launched from any memory with zero counters, every weakly fair execution
  terminates, nothing faulting; the contents of every unscoped buffer at the end are the fold of the segments over the
  launch memory (host stretches applied as pure functions, each region's output array at what its write-backs leave).
  So the result array ends at that fold read at the result's buffer, and the seven argument arrays end as launched.
-/
import proofs.«140400_j29326036697585_2_alg».proof.Proof.Gen.KernelIdeal.Frame

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with the result array at the last boundary's contents and the
    arguments as launched. -/
theorem run_named : θ_run defs (onTc (τ := τ) (main (F := F))) ⟨m, fun _ => 0, ρ⟩ (fun r => ∀ c : Dev nD,
      r.2.mem ((c.tc : Thread nD τ).loc main_v85) = W15 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v85 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c)⟩)

end Cert.KernelIdeal.Layer

end
-- ==== Proof.Spec.lean ====
/-
  What each of the three kinds of kernel region of a two-layer graph convolution leaves in its output array, as ONE
  function of the arrays it reads, index by index, on the extended reals:
  * the dense projection h = x · W: entry (p, q) is the sum over k of x[p, k] · W[k, q];
  * the edge message: row e of the gathered features scaled by the edge's normalisation
    (d_src[e] · w[e]) · d_dst[e], the three factors kept as columns [E, 1];
  * the node update: (agg + h · (d · d)) + b, the degree factor d a column [N, 1] and the bias b a row [1, C],
    with or without the clamp at zero.
  The products and sums are associated exactly as both programs associate them, so no law of the extended reals is
  needed to compare them.
-/
import proofs.«140400_j29326036697585_2_alg».proof.KernelIdeal
import Idealize.ShloMosaic.PureOps.Ideal
import Idealize.ShloMosaic.Lib.ValueIdx

noncomputable section

open scoped BigOperators

namespace Cert.KernelIdeal.Layer

open Idealize.ShloMosaic Idealize.ShloMosaic.ValueIdx Cert.KernelIdeal

/-- The dense projection: (x · W)[p, q] = Σ_k x[p, k] · W[k, q]. -/
def linV (x : FVec Ideal S50000x128 .f32) (w : FVec Ideal S128x128 .f32) : FVec Ideal S50000x128 .f32 :=
  fun i => ∑ k : Fin 128, x (ix2 (i 0 : Fin 50000) k) * w (ix2 k (i 1 : Fin 128))

/-- The edge message: h[e, q] · ((d_src[e] · w[e]) · d_dst[e]). -/
def msgV (h : FVec Ideal S600000x128 .f32) (ds ew dd : FVec Ideal S600000x1 .f32) : FVec Ideal S600000x128 .f32 :=
  fun i => h i * ((ds (ix2 (i 0 : Fin 600000) (0 : Fin 1)) * ew (ix2 (i 0 : Fin 600000) (0 : Fin 1)))
    * dd (ix2 (i 0 : Fin 600000) (0 : Fin 1)))

/-- The node update without the clamp: (agg[n, q] + h[n, q] · (d[n] · d[n])) + b[q]. -/
def finV (agg h : FVec Ideal S50000x128 .f32) (d : FVec Ideal S50000x1 .f32) (b : FVec Ideal S1x128 .f32) :
    FVec Ideal S50000x128 .f32 :=
  fun i => (agg i + h i * (d (ix2 (i 0 : Fin 50000) (0 : Fin 1)) * d (ix2 (i 0 : Fin 50000) (0 : Fin 1))))
    + b (ix2 (0 : Fin 1) (i 1 : Fin 128))

/-- The node update clamped at zero (the zero being the f32 word 0). -/
def finReluV (agg h : FVec Ideal S50000x128 .f32) (d : FVec Ideal S50000x1 .f32) (b : FVec Ideal S1x128 .f32) :
    FVec Ideal S50000x128 .f32 :=
  fun i => max (finV agg h d b i) (Ideal.ofBits .f32 0x00000000#32)

end Cert.KernelIdeal.Layer

end
-- ==== Proof.HostStages.lean ====
/-
  The host side of one layer of the graph convolution, as small pure functions of arrays, and each stretch of host
  operations of the kernel's program read as those functions.
  * the two rows of the edge list, as vectors: source and destination node of each edge;
  * the weighted degree deg[n] = (sum of w[e] over the edges e into n) + 1, and the normaliser
    dinv[n] = deg[n]^(-1/2) where deg[n] > 0, else 0;
  * an index vector made non-negative (a negative index counts from the end) and set up as gather indices;
  * dinv gathered at the edges' endpoints as a column [E, 1]; the rows of a feature matrix gathered at the edges' sources;
  * the messages summed into their destination rows.
  A stretch of host operations acts on the buffers as a fold; read at one buffer it is one of these functions of the
  contents before the stretch, and a buffer the stretch does not write keeps its contents.
-/
import proofs.«140400_j29326036697585_2_alg».proof.Proof.Gen.KernelIdeal.Launch
import proofs.«140400_j29326036697585_2_alg».proof.Proof.Spec
import Idealize.ShloMosaic.Lib.StableHlo.Run

set_option maxRecDepth 16384

noncomputable section

namespace Cert.KernelIdeal.Layer

open Idealize.ShloMosaic Idealize.ShloMosaic.TcCoe Idealize.SL.Sem Idealize.ShloMosaic.StableHlo
open Cert.KernelIdeal Cert.KernelIdeal.Gen

/-! ## The host functions -/

/-- Row 0 of the edge list: each edge's source node. -/
def edgeSrc (e : (⟨S2x600000, .i32⟩ : BufTy).Contents (Elt Ideal)) : (⟨S600000, .i32⟩ : BufTy).Contents (Elt Ideal) :=
  shapeCast S600000 (extractStridedSlice S1x600000 ![0, 0] e slices_S2x600000_S1x600000_0_0) shapeCasts_S1x600000_S600000

/-- Row 1 of the edge list: each edge's destination node. -/
def edgeDst (e : (⟨S2x600000, .i32⟩ : BufTy).Contents (Elt Ideal)) : (⟨S600000, .i32⟩ : BufTy).Contents (Elt Ideal) :=
  shapeCast S600000 (extractStridedSlice S1x600000 ![1, 0] e slices_S2x600000_S1x600000_1_0) shapeCasts_S1x600000_S600000

/-- The weighted in-degree plus the self loop's 1. -/
def degOf (dst : (⟨S600000, .i32⟩ : BufTy).Contents (Elt Ideal)) (ew : (⟨S600000, .f32⟩ : BufTy).Contents (Elt Ideal)) : (⟨S50000, .f32⟩ : BufTy).Contents (Elt Ideal) :=
  addf (Host.scatterAdd scatter_S50000_S600000x1_S600000_n_0_0_1 (broadcastInDim S50000 ![] bcast_S_S50000 (constant (F := Ideal) S_ .f32 0x00000000#32))
      (broadcastInDim S600000x1 ![0] bcast_S600000_S600000x1_0 dst) ew)
    (broadcastInDim S50000 ![] bcast_S_S50000 (constant (F := Ideal) S_ .f32 0x3F800000#32))

/-- "deg > 0" as a mask. -/
def degPos (dst : (⟨S600000, .i32⟩ : BufTy).Contents (Elt Ideal)) (ew : (⟨S600000, .f32⟩ : BufTy).Contents (Elt Ideal)) : (⟨S50000, .i1⟩ : BufTy).Contents (Elt Ideal) :=
  cmpf .ogt (degOf dst ew) (broadcastInDim S50000 ![] bcast_S_S50000 (constant (F := Ideal) S_ .f32 0x00000000#32))

/-- The normaliser: deg^(-1/2) where deg > 0, else 0. -/
def dinvOf (dst : (⟨S600000, .i32⟩ : BufTy).Contents (Elt Ideal)) (ew : (⟨S600000, .f32⟩ : BufTy).Contents (Elt Ideal)) : (⟨S50000, .f32⟩ : BufTy).Contents (Elt Ideal) :=
  select (degPos dst ew) (Host.rsqrt (F := Ideal) (s := S50000) (φ := .f32) (degOf dst ew)) (broadcastInDim S50000 ![] bcast_S_S50000 (id (constant (F := Ideal) S_ .f32 0x00000000#32)))

/-- Node indices made non-negative and set up as gather indices [E, 1]. -/
def wrapIdx (s : (⟨S600000, .i32⟩ : BufTy).Contents (Elt Ideal)) : (⟨S600000x1, .i32⟩ : BufTy).Contents (Elt Ideal) :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 50000#32))) s)

/-- A node vector gathered at the edges' endpoints, as a column [E, 1]. -/
def colOf (v : (⟨S50000, .f32⟩ : BufTy).Contents (Elt Ideal)) (s : (⟨S600000, .i32⟩ : BufTy).Contents (Elt Ideal)) : (⟨S600000x1, .f32⟩ : BufTy).Contents (Elt Ideal) :=
  shapeCast S600000x1 (Host.gather gather_S50000_S600000x1_S600000_n_0_n_n_0_1_1 v (wrapIdx s)) shapeCasts_S600000_S600000x1

/-- The rows of a feature matrix gathered at the edges' endpoints. -/
def rowsOf (h : (⟨S50000x128, .f32⟩ : BufTy).Contents (Elt Ideal)) (s : (⟨S600000, .i32⟩ : BufTy).Contents (Elt Ideal)) : (⟨S600000x128, .f32⟩ : BufTy).Contents (Elt Ideal) :=
  Host.gather gather_S50000x128_S600000x1_S600000x128_1_0_n_n_0_1_1128 h (wrapIdx s)

/-- The messages summed into their destination rows. -/
def aggOf (dst : (⟨S600000, .i32⟩ : BufTy).Contents (Elt Ideal)) (msg : (⟨S600000x128, .f32⟩ : BufTy).Contents (Elt Ideal)) : (⟨S50000x128, .f32⟩ : BufTy).Contents (Elt Ideal) :=
  Host.scatterAdd scatter_S50000x128_S600000x1_S600000x128_1_0_0_1 (broadcastInDim S50000x128 ![] bcast_S_S50000x128 (constant (F := Ideal) S_ .f32 0x00000000#32))
    (broadcastInDim S600000x1 ![0] bcast_S600000_S600000x1_0 dst) msg

/-- One layer's messages from its projected features. -/
def msgOf (h : (⟨S50000x128, .f32⟩ : BufTy).Contents (Elt Ideal)) (src dst : (⟨S600000, .i32⟩ : BufTy).Contents (Elt Ideal)) (ew : (⟨S600000, .f32⟩ : BufTy).Contents (Elt Ideal)) : (⟨S600000x128, .f32⟩ : BufTy).Contents (Elt Ideal) :=
  msgV (rowsOf h src) (colOf (dinvOf dst ew) src) (shapeCast S600000x1 ew shapeCasts_S600000_S600000x1) (colOf (dinvOf dst ew) dst)

/-- One layer with the clamp at zero: projection, messages, aggregation, self loop and bias. -/
def layerRelu (x : (⟨S50000x128, .f32⟩ : BufTy).Contents (Elt Ideal)) (w : (⟨S128x128, .f32⟩ : BufTy).Contents (Elt Ideal)) (b : (⟨S128, .f32⟩ : BufTy).Contents (Elt Ideal)) (src dst : (⟨S600000, .i32⟩ : BufTy).Contents (Elt Ideal)) (ew : (⟨S600000, .f32⟩ : BufTy).Contents (Elt Ideal)) :
    (⟨S50000x128, .f32⟩ : BufTy).Contents (Elt Ideal) :=
  finReluV (aggOf dst (msgOf (linV x w) src dst ew)) (linV x w) (shapeCast S50000x1 (dinvOf dst ew) shapeCasts_S50000_S50000x1)
    (shapeCast S1x128 b shapeCasts_S128_S1x128)

/-- One layer without the clamp. -/
def layerPlain (x : (⟨S50000x128, .f32⟩ : BufTy).Contents (Elt Ideal)) (w : (⟨S128x128, .f32⟩ : BufTy).Contents (Elt Ideal)) (b : (⟨S128, .f32⟩ : BufTy).Contents (Elt Ideal)) (src dst : (⟨S600000, .i32⟩ : BufTy).Contents (Elt Ideal)) (ew : (⟨S600000, .f32⟩ : BufTy).Contents (Elt Ideal)) :
    (⟨S50000x128, .f32⟩ : BufTy).Contents (Elt Ideal) :=
  finV (aggOf dst (msgOf (linV x w) src dst ew)) (linV x w) (shapeCast S50000x1 (dinvOf dst ew) shapeCasts_S50000_S50000x1)
    (shapeCast S1x128 b shapeCasts_S128_S1x128)

/-! ## The stretches of host operations, read at one buffer -/

variable (U : Valuation τ sig (Elt Ideal))

/-! ### What each stretch computes -/

theorem h0_v1 : StableHlo.after (hostOps0 (F := Ideal)) U (Proc.devRef .tc main_v1) = edgeSrc (U (Proc.devRef .tc main_arg1)) := by
  after_results_simp <;> rfl
theorem h0_v3 : StableHlo.after (hostOps0 (F := Ideal)) U (Proc.devRef .tc main_v3) = edgeDst (U (Proc.devRef .tc main_arg1)) := by
  after_results_simp <;> rfl

theorem h1_v11 : StableHlo.after (hostOps1 (F := Ideal)) U (Proc.devRef .tc main_v11) = degPos (U (Proc.devRef .tc main_v3)) (U (Proc.devRef .tc main_arg2)) := by
  after_results_simp <;> rfl
theorem h1_v12 : StableHlo.after (hostOps1 (F := Ideal)) U (Proc.devRef .tc main_v12) = Host.rsqrt (F := Ideal) (s := S50000) (φ := .f32) (degOf (U (Proc.devRef .tc main_v3)) (U (Proc.devRef .tc main_arg2))) := by
  after_results_simp <;> rfl
theorem h1_cst : StableHlo.after (hostOps1 (F := Ideal)) U (Proc.devRef .tc main_cst_2) = (constant (F := Ideal) S_ .f32 0x00000000#32) := by
  after_results_simp <;> rfl

theorem h1w_v13 : StableHlo.after (hostOps1_1 (F := Ideal)) U (Proc.devRef .tc main_v13)
    = select (U (Proc.devRef .tc main_v11)) (U (Proc.devRef .tc main_v12)) (broadcastInDim S50000 ![] bcast_S_S50000 (id (U (Proc.devRef .tc main_cst_2)))) := by
  after_results_simp <;> rfl

theorem h1g_v14 : StableHlo.after (hostOps1_2 (F := Ideal)) U (Proc.devRef .tc main_v14) = shapeCast S50000x1 (U (Proc.devRef .tc main_v13)) shapeCasts_S50000_S50000x1 := by
  after_results_simp <;> rfl
theorem h1g_v22 : StableHlo.after (hostOps1_2 (F := Ideal)) U (Proc.devRef .tc main_v22) = colOf (U (Proc.devRef .tc main_v13)) (U (Proc.devRef .tc main_v1)) := by
  after_results_simp <;> rfl
theorem h1g_v30 : StableHlo.after (hostOps1_2 (F := Ideal)) U (Proc.devRef .tc main_v30) = colOf (U (Proc.devRef .tc main_v13)) (U (Proc.devRef .tc main_v3)) := by
  after_results_simp <;> rfl
theorem h1g_v31 : StableHlo.after (hostOps1_2 (F := Ideal)) U (Proc.devRef .tc main_v31) = shapeCast S600000x1 (U (Proc.devRef .tc main_arg2)) shapeCasts_S600000_S600000x1 := by
  after_results_simp <;> rfl
theorem h1g_v38 : StableHlo.after (hostOps1_2 (F := Ideal)) U (Proc.devRef .tc main_v38) = rowsOf (U (Proc.devRef .tc main_v4)) (U (Proc.devRef .tc main_v1)) := by
  after_results_simp <;> rfl

theorem h2_v42 : StableHlo.after (hostOps2 (F := Ideal)) U (Proc.devRef .tc main_v42) = aggOf (U (Proc.devRef .tc main_v3)) (U (Proc.devRef .tc main_v39)) := by
  after_results_simp <;> rfl
theorem h2_v43 : StableHlo.after (hostOps2 (F := Ideal)) U (Proc.devRef .tc main_v43) = shapeCast S1x128 (U (Proc.devRef .tc main_arg4)) shapeCasts_S128_S1x128 := by
  after_results_simp <;> rfl

theorem h4_v52 : StableHlo.after (hostOps4 (F := Ideal)) U (Proc.devRef .tc main_v52) = degPos (U (Proc.devRef .tc main_v3)) (U (Proc.devRef .tc main_arg2)) := by
  after_results_simp <;> rfl
theorem h4_v53 : StableHlo.after (hostOps4 (F := Ideal)) U (Proc.devRef .tc main_v53) = Host.rsqrt (F := Ideal) (s := S50000) (φ := .f32) (degOf (U (Proc.devRef .tc main_v3)) (U (Proc.devRef .tc main_arg2))) := by
  after_results_simp <;> rfl
theorem h4_cst : StableHlo.after (hostOps4 (F := Ideal)) U (Proc.devRef .tc main_cst_12) = (constant (F := Ideal) S_ .f32 0x00000000#32) := by
  after_results_simp <;> rfl

theorem h4w_v54 : StableHlo.after (hostOps4_1 (F := Ideal)) U (Proc.devRef .tc main_v54)
    = select (U (Proc.devRef .tc main_v52)) (U (Proc.devRef .tc main_v53)) (broadcastInDim S50000 ![] bcast_S_S50000 (id (U (Proc.devRef .tc main_cst_12)))) := by
  after_results_simp <;> rfl

theorem h4g_v55 : StableHlo.after (hostOps4_2 (F := Ideal)) U (Proc.devRef .tc main_v55) = shapeCast S50000x1 (U (Proc.devRef .tc main_v54)) shapeCasts_S50000_S50000x1 := by
  after_results_simp <;> rfl
theorem h4g_v63 : StableHlo.after (hostOps4_2 (F := Ideal)) U (Proc.devRef .tc main_v63) = colOf (U (Proc.devRef .tc main_v54)) (U (Proc.devRef .tc main_v1)) := by
  after_results_simp <;> rfl
theorem h4g_v71 : StableHlo.after (hostOps4_2 (F := Ideal)) U (Proc.devRef .tc main_v71) = colOf (U (Proc.devRef .tc main_v54)) (U (Proc.devRef .tc main_v3)) := by
  after_results_simp <;> rfl
theorem h4g_v72 : StableHlo.after (hostOps4_2 (F := Ideal)) U (Proc.devRef .tc main_v72) = shapeCast S600000x1 (U (Proc.devRef .tc main_arg2)) shapeCasts_S600000_S600000x1 := by
  after_results_simp <;> rfl
theorem h4g_v79 : StableHlo.after (hostOps4_2 (F := Ideal)) U (Proc.devRef .tc main_v79) = rowsOf (U (Proc.devRef .tc main_v45)) (U (Proc.devRef .tc main_v1)) := by
  after_results_simp <;> rfl

theorem h5_v83 : StableHlo.after (hostOps5 (F := Ideal)) U (Proc.devRef .tc main_v83) = aggOf (U (Proc.devRef .tc main_v3)) (U (Proc.devRef .tc main_v80)) := by
  after_results_simp <;> rfl
theorem h5_v84 : StableHlo.after (hostOps5 (F := Ideal)) U (Proc.devRef .tc main_v84) = shapeCast S1x128 (U (Proc.devRef .tc main_arg6)) shapeCasts_S128_S1x128 := by
  after_results_simp <;> rfl

/-! ### Untouched by `hostOps0` -/

theorem keep_h0_arg0 : StableHlo.after (hostOps0 (F := Ideal)) U (Proc.devRef .tc main_arg0) = U (Proc.devRef .tc main_arg0) := by
  after_results_simp <;> rfl
theorem keep_h0_arg2 : StableHlo.after (hostOps0 (F := Ideal)) U (Proc.devRef .tc main_arg2) = U (Proc.devRef .tc main_arg2) := by
  after_results_simp <;> rfl
theorem keep_h0_arg3 : StableHlo.after (hostOps0 (F := Ideal)) U (Proc.devRef .tc main_arg3) = U (Proc.devRef .tc main_arg3) := by
  after_results_simp <;> rfl
theorem keep_h0_arg4 : StableHlo.after (hostOps0 (F := Ideal)) U (Proc.devRef .tc main_arg4) = U (Proc.devRef .tc main_arg4) := by
  after_results_simp <;> rfl
theorem keep_h0_arg5 : StableHlo.after (hostOps0 (F := Ideal)) U (Proc.devRef .tc main_arg5) = U (Proc.devRef .tc main_arg5) := by
  after_results_simp <;> rfl
theorem keep_h0_arg6 : StableHlo.after (hostOps0 (F := Ideal)) U (Proc.devRef .tc main_arg6) = U (Proc.devRef .tc main_arg6) := by
  after_results_simp <;> rfl

/-! ### Untouched by `hostOps1` -/

theorem keep_h1_v4 : StableHlo.after (hostOps1 (F := Ideal)) U (Proc.devRef .tc main_v4) = U (Proc.devRef .tc main_v4) := by
  after_results_simp <;> rfl
theorem keep_h1_v1 : StableHlo.after (hostOps1 (F := Ideal)) U (Proc.devRef .tc main_v1) = U (Proc.devRef .tc main_v1) := by
  after_results_simp <;> rfl
theorem keep_h1_v3 : StableHlo.after (hostOps1 (F := Ideal)) U (Proc.devRef .tc main_v3) = U (Proc.devRef .tc main_v3) := by
  after_results_simp <;> rfl
theorem keep_h1_arg2 : StableHlo.after (hostOps1 (F := Ideal)) U (Proc.devRef .tc main_arg2) = U (Proc.devRef .tc main_arg2) := by
  after_results_simp <;> rfl
theorem keep_h1_arg4 : StableHlo.after (hostOps1 (F := Ideal)) U (Proc.devRef .tc main_arg4) = U (Proc.devRef .tc main_arg4) := by
  after_results_simp <;> rfl
theorem keep_h1_arg5 : StableHlo.after (hostOps1 (F := Ideal)) U (Proc.devRef .tc main_arg5) = U (Proc.devRef .tc main_arg5) := by
  after_results_simp <;> rfl
theorem keep_h1_arg6 : StableHlo.after (hostOps1 (F := Ideal)) U (Proc.devRef .tc main_arg6) = U (Proc.devRef .tc main_arg6) := by
  after_results_simp <;> rfl

/-! ### Untouched by `hostOps1_1` -/

theorem keep_h1w_v4 : StableHlo.after (hostOps1_1 (F := Ideal)) U (Proc.devRef .tc main_v4) = U (Proc.devRef .tc main_v4) := by
  after_results_simp <;> rfl
theorem keep_h1w_v1 : StableHlo.after (hostOps1_1 (F := Ideal)) U (Proc.devRef .tc main_v1) = U (Proc.devRef .tc main_v1) := by
  after_results_simp <;> rfl
theorem keep_h1w_v3 : StableHlo.after (hostOps1_1 (F := Ideal)) U (Proc.devRef .tc main_v3) = U (Proc.devRef .tc main_v3) := by
  after_results_simp <;> rfl
theorem keep_h1w_arg2 : StableHlo.after (hostOps1_1 (F := Ideal)) U (Proc.devRef .tc main_arg2) = U (Proc.devRef .tc main_arg2) := by
  after_results_simp <;> rfl
theorem keep_h1w_arg4 : StableHlo.after (hostOps1_1 (F := Ideal)) U (Proc.devRef .tc main_arg4) = U (Proc.devRef .tc main_arg4) := by
  after_results_simp <;> rfl
theorem keep_h1w_arg5 : StableHlo.after (hostOps1_1 (F := Ideal)) U (Proc.devRef .tc main_arg5) = U (Proc.devRef .tc main_arg5) := by
  after_results_simp <;> rfl
theorem keep_h1w_arg6 : StableHlo.after (hostOps1_1 (F := Ideal)) U (Proc.devRef .tc main_arg6) = U (Proc.devRef .tc main_arg6) := by
  after_results_simp <;> rfl

/-! ### Untouched by `hostOps1_2` -/

theorem keep_h1g_v4 : StableHlo.after (hostOps1_2 (F := Ideal)) U (Proc.devRef .tc main_v4) = U (Proc.devRef .tc main_v4) := by
  after_results_simp <;> rfl
theorem keep_h1g_v1 : StableHlo.after (hostOps1_2 (F := Ideal)) U (Proc.devRef .tc main_v1) = U (Proc.devRef .tc main_v1) := by
  after_results_simp <;> rfl
theorem keep_h1g_v3 : StableHlo.after (hostOps1_2 (F := Ideal)) U (Proc.devRef .tc main_v3) = U (Proc.devRef .tc main_v3) := by
  after_results_simp <;> rfl
theorem keep_h1g_arg2 : StableHlo.after (hostOps1_2 (F := Ideal)) U (Proc.devRef .tc main_arg2) = U (Proc.devRef .tc main_arg2) := by
  after_results_simp <;> rfl
theorem keep_h1g_arg4 : StableHlo.after (hostOps1_2 (F := Ideal)) U (Proc.devRef .tc main_arg4) = U (Proc.devRef .tc main_arg4) := by
  after_results_simp <;> rfl
theorem keep_h1g_arg5 : StableHlo.after (hostOps1_2 (F := Ideal)) U (Proc.devRef .tc main_arg5) = U (Proc.devRef .tc main_arg5) := by
  after_results_simp <;> rfl
theorem keep_h1g_arg6 : StableHlo.after (hostOps1_2 (F := Ideal)) U (Proc.devRef .tc main_arg6) = U (Proc.devRef .tc main_arg6) := by
  after_results_simp <;> rfl

/-! ### Untouched by `hostOps2` -/

theorem keep_h2_v4 : StableHlo.after (hostOps2 (F := Ideal)) U (Proc.devRef .tc main_v4) = U (Proc.devRef .tc main_v4) := by
  after_results_simp <;> rfl
theorem keep_h2_v14 : StableHlo.after (hostOps2 (F := Ideal)) U (Proc.devRef .tc main_v14) = U (Proc.devRef .tc main_v14) := by
  after_results_simp <;> rfl
theorem keep_h2_v1 : StableHlo.after (hostOps2 (F := Ideal)) U (Proc.devRef .tc main_v1) = U (Proc.devRef .tc main_v1) := by
  after_results_simp <;> rfl
theorem keep_h2_v3 : StableHlo.after (hostOps2 (F := Ideal)) U (Proc.devRef .tc main_v3) = U (Proc.devRef .tc main_v3) := by
  after_results_simp <;> rfl
theorem keep_h2_arg2 : StableHlo.after (hostOps2 (F := Ideal)) U (Proc.devRef .tc main_arg2) = U (Proc.devRef .tc main_arg2) := by
  after_results_simp <;> rfl
theorem keep_h2_arg5 : StableHlo.after (hostOps2 (F := Ideal)) U (Proc.devRef .tc main_arg5) = U (Proc.devRef .tc main_arg5) := by
  after_results_simp <;> rfl
theorem keep_h2_arg6 : StableHlo.after (hostOps2 (F := Ideal)) U (Proc.devRef .tc main_arg6) = U (Proc.devRef .tc main_arg6) := by
  after_results_simp <;> rfl

/-! ### Untouched by `hostOps4` -/

theorem keep_h4_v45 : StableHlo.after (hostOps4 (F := Ideal)) U (Proc.devRef .tc main_v45) = U (Proc.devRef .tc main_v45) := by
  after_results_simp <;> rfl
theorem keep_h4_v1 : StableHlo.after (hostOps4 (F := Ideal)) U (Proc.devRef .tc main_v1) = U (Proc.devRef .tc main_v1) := by
  after_results_simp <;> rfl
theorem keep_h4_v3 : StableHlo.after (hostOps4 (F := Ideal)) U (Proc.devRef .tc main_v3) = U (Proc.devRef .tc main_v3) := by
  after_results_simp <;> rfl
theorem keep_h4_arg2 : StableHlo.after (hostOps4 (F := Ideal)) U (Proc.devRef .tc main_arg2) = U (Proc.devRef .tc main_arg2) := by
  after_results_simp <;> rfl
theorem keep_h4_arg6 : StableHlo.after (hostOps4 (F := Ideal)) U (Proc.devRef .tc main_arg6) = U (Proc.devRef .tc main_arg6) := by
  after_results_simp <;> rfl

/-! ### Untouched by `hostOps4_1` -/

theorem keep_h4w_v45 : StableHlo.after (hostOps4_1 (F := Ideal)) U (Proc.devRef .tc main_v45) = U (Proc.devRef .tc main_v45) := by
  after_results_simp <;> rfl
theorem keep_h4w_v1 : StableHlo.after (hostOps4_1 (F := Ideal)) U (Proc.devRef .tc main_v1) = U (Proc.devRef .tc main_v1) := by
  after_results_simp <;> rfl
theorem keep_h4w_v3 : StableHlo.after (hostOps4_1 (F := Ideal)) U (Proc.devRef .tc main_v3) = U (Proc.devRef .tc main_v3) := by
  after_results_simp <;> rfl
theorem keep_h4w_arg2 : StableHlo.after (hostOps4_1 (F := Ideal)) U (Proc.devRef .tc main_arg2) = U (Proc.devRef .tc main_arg2) := by
  after_results_simp <;> rfl
theorem keep_h4w_arg6 : StableHlo.after (hostOps4_1 (F := Ideal)) U (Proc.devRef .tc main_arg6) = U (Proc.devRef .tc main_arg6) := by
  after_results_simp <;> rfl

/-! ### Untouched by `hostOps4_2` -/

theorem keep_h4g_v45 : StableHlo.after (hostOps4_2 (F := Ideal)) U (Proc.devRef .tc main_v45) = U (Proc.devRef .tc main_v45) := by
  after_results_simp <;> rfl
theorem keep_h4g_v3 : StableHlo.after (hostOps4_2 (F := Ideal)) U (Proc.devRef .tc main_v3) = U (Proc.devRef .tc main_v3) := by
  after_results_simp <;> rfl
theorem keep_h4g_arg6 : StableHlo.after (hostOps4_2 (F := Ideal)) U (Proc.devRef .tc main_arg6) = U (Proc.devRef .tc main_arg6) := by
  after_results_simp <;> rfl

/-! ### Untouched by `hostOps5` -/

theorem keep_h5_v45 : StableHlo.after (hostOps5 (F := Ideal)) U (Proc.devRef .tc main_v45) = U (Proc.devRef .tc main_v45) := by
  after_results_simp <;> rfl
theorem keep_h5_v55 : StableHlo.after (hostOps5 (F := Ideal)) U (Proc.devRef .tc main_v55) = U (Proc.devRef .tc main_v55) := by
  after_results_simp <;> rfl

end Cert.KernelIdeal.Layer

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.RegionLin.lean ====
/-
  The two dense projections of the two-layer graph convolution, read off the pipeline that computes them. Each
  projection runs over ten grid points; point t holds rows 5000·t … 5000·t + 4999 of the feature array and the whole
  128×128 weight array, and writes back rows 5000·t … 5000·t + 4999 of the product. Entry (p, q) of the block a point
  writes is Σ_k x[5000·t + p, k] · W[k, q] (the narrowing of the operands in front of the product is the identity on
  the extended reals), which is entry (5000·t + p, q) of the whole product x · W; the ten row blocks tile the 50000
  rows, so the output array ends holding x · W.
-/
import proofs.«140400_j29326036697585_2_alg».proof.Proof.Gen.KernelIdeal.Frame
import proofs.«140400_j29326036697585_2_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«140400_j29326036697585_2_alg».proof.Proof.LibMatmul

noncomputable section

open scoped BigOperators

namespace Cert.KernelIdeal.Layer

open Idealize.ShloMosaic Idealize.ShloMosaic.TcCoe Idealize.ShloMosaic.ValueIdx Idealize.SL.Sem Cert.KernelIdeal Cert.KernelIdeal.Gen
open Idealize.ShloMosaic.Pipeline (Dat Cfg Window)

/-- The offset of an access to a whole buffer is zero on both axes. -/
theorem lin_off_zero : (![0, 0] : Fin 2 → Nat) = fun _ => 0 := funext fun a => by fin_cases a <;> rfl

/-- The kernel's contraction record is that of the plain 5000×128 by 128×128 product: the left operand's second axis
    against the right operand's first. -/
theorem lin_dot_eq_plain : dot_S5000x128_S128x128_S5000x128_1_0_0_1_n_n = DotDims.plain 5000 128 128 := rfl

/-! ## The first projection -/

/-- The body's product at (p, q) of a block of rows x0 and the weights x1: Σ_k x0[p, k] · x1[k, q]. -/
theorem lin0_pay_apply (x0 : Vec Ideal S5000x128 .f32) (x1 : Vec Ideal S128x128 .f32) (p : Fin 5000) (q : Fin 128) :
    Gen.k0_pay1 x0 x1 (ix2 p q) = ∑ k : Fin 128, x0 (ix2 p k) * x1 (ix2 k q) := by
  unfold Gen.k0_pay1
  rw [lin_dot_eq_plain]
  exact Cert.Bridge.LibMatmul.matmul_zero_apply none _ _ p q

variable (V : (c : Dev nD) → (b : Ref sig .tc) → Buf (Elt Ideal) ((c : Thread nD τ).loc b)) (c : Dev nD)

/-- The index maps of the first projection, decided over its ten grid points: the feature window and the output
    window sit at row block t, column block 0; the weight window is the whole array at every point. -/
theorem lin0_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the feature array and the weight array as the region
    finds them. -/
theorem lin0_flushed (t : Fin cfg0.N) :
    (Gen.dat0 (F := Ideal) V c).flushed 2 t
      = ((cfg0.win 2).blk t).view.read (Elt Ideal) (linV (V c main_arg0) (V c main_arg3)) := by
  show (cfg0.win 2).cut (grid0.coords t) ((Gen.dat0 (F := Ideal) V c).after 2 t) = _
  rw [Gen.after0_2]
  unfold Gen.out0_2
  rw [View.canon_unit_zero lin_off_zero]
  simp only [View.ld_unit_zero (S := S5000x128) lin_off_zero, View.ld_unit_zero (S := S128x128) lin_off_zero]
  obtain ⟨e0, e1, e2, e3, e4, e5⟩ := lin0_idx t
  funext j
  obtain ⟨p, q, rfl⟩ : ∃ (p : Fin 5000) (q : Fin 128), j = ix2 p q := ⟨j 0, j 1, eq_ix2 j⟩
  show Gen.k0_pay1 (Gen.iblk0 V c 0 t) (Gen.iblk0 V c 1 t) (ix2 p q)
      = linV (V c main_arg0) (V c main_arg3) (((cfg0.win 2).blk t).view.emb (ix2 p q))
  refine (lin0_pay_apply (Gen.iblk0 V c 0 t) (Gen.iblk0 V c 1 t) p q).trans ?_
  unfold linV
  refine Finset.sum_congr rfl fun k _ => ?_
  -- the feature block's entry (p, k) is the array's entry in the output block's row, column k
  have hx : Gen.iblk0 V c 0 t (ix2 p k)
      = V c main_arg0 (ix2 ((((cfg0.win 2).blk t).view.emb (ix2 p q)) 0 : Fin 50000) k) := by
    show V c main_arg0 (((cfg0.win 0).blk t).view.emb (ix2 p k)) = _
    refine congrArg (V c main_arg0) (funext fun a => Fin.ext ?_)
    match a with
    | ⟨0, _⟩ =>
      show win0_0.index t (0 : Fin 2) * 5000 + 1 * p.val = win0_2.index t (0 : Fin 2) * 5000 + 1 * p.val
      omega
    | ⟨1, _⟩ => show win0_0.index t (1 : Fin 2) * 128 + 1 * k.val = k.val; omega
  -- the weight block's entry (k, q) is the array's entry in row k, the output block's column
  have hw : Gen.iblk0 V c 1 t (ix2 k q)
      = V c main_arg3 (ix2 k ((((cfg0.win 2).blk t).view.emb (ix2 p q)) 1 : Fin 128)) := by
    show V c main_arg3 (((cfg0.win 1).blk t).view.emb (ix2 k q)) = _
    refine congrArg (V c main_arg3) (funext fun a => Fin.ext ?_)
    match a with
    | ⟨0, _⟩ => show win0_1.index t (0 : Fin 2) * 128 + 1 * k.val = k.val; omega
    | ⟨1, _⟩ =>
      show win0_1.index t (1 : Fin 2) * 128 + 1 * q.val = win0_2.index t (1 : Fin 2) * 128 + 1 * q.val
      omega
  exact congrArg₂ (· * ·) hx hw

/-- An index of the product array is in point t's block iff each coordinate is in the block's range on its axis. -/
theorem lin0_mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v4).slice (win0_2.rect t)).set ↔ _
  rw [View.set_slice_whole, Rect.mem_set_unit]
  exact Iff.rfl

/-- The ten row blocks tile the 50000 rows: row r is in the block of point r / 5000. -/
theorem lin0_cover (i : S50000x128.Idx) :
    ∃ t : Fin cfg0.N, (cfg0.win 2).flush t = true ∧ i ∈ ((cfg0.win 2).blk t).view.set := by
  have hN : grid0.N = 10 := Gen.N_0
  have hi0 : (i 0).val < 50000 := (i 0).isLt
  have hi1 : (i 1).val < 128 := (i 1).isLt
  have ht : (i 0).val / 5000 < cfg0.N := by show _ < grid0.N; rw [hN]; omega
  obtain ⟨-, -, -, -, e4, e5⟩ := lin0_idx ⟨(i 0).val / 5000, ht⟩
  refine ⟨⟨(i 0).val / 5000, ht⟩, Gen.flush0_2 _, ?_⟩
  rw [lin0_mem_blk]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    rw [e5]
    omega

/-- The first projection's output array after the region: the product of the feature array and the first
    layer's weights as the region finds them. -/
theorem lin0_value : (Gen.dat0 (F := Ideal) V c).arrAt 2 cfg0.N = linV (V c main_arg0) (V c main_arg3) :=
  (Gen.dat0 (F := Ideal) V c).arrAt_eq_of_cover 2 (linV (V c main_arg0) (V c main_arg3))
    (fun t _ => lin0_flushed V c t) lin0_cover

/-! ## The second projection -/

/-- The second projection's product at (p, q), the same sum (the reshape in front of it is to the same shape). -/
theorem lin3_pay_apply (x0 : Vec Ideal S5000x128 .f32) (x1 : Vec Ideal S128x128 .f32) (p : Fin 5000) (q : Fin 128) :
    Gen.k3_pay1 x0 x1 (ix2 p q) = ∑ k : Fin 128, x0 (ix2 p k) * x1 (ix2 k q) := by
  unfold Gen.k3_pay1
  rw [lin_dot_eq_plain, shapeCast_self]
  exact Cert.Bridge.LibMatmul.matmul_zero_apply none _ _ p q

/-- The index maps of the second projection, decided over its ten grid points: the hidden-layer window and the output
    window sit at row block t, column block 0; the weight window is the whole array at every point. -/
theorem lin3_idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the product of the hidden-layer array and the weight array as the region
    finds them. -/
theorem lin3_flushed (t : Fin cfg3.N) :
    (Gen.dat3 (F := Ideal) V c).flushed 2 t
      = ((cfg3.win 2).blk t).view.read (Elt Ideal) (linV (V c main_v44) (V c main_arg5)) := by
  show (cfg3.win 2).cut (grid3.coords t) ((Gen.dat3 (F := Ideal) V c).after 2 t) = _
  rw [Gen.after3_2]
  unfold Gen.out3_2
  rw [View.canon_unit_zero lin_off_zero]
  simp only [View.ld_unit_zero (S := S5000x128) lin_off_zero, View.ld_unit_zero (S := S128x128) lin_off_zero]
  obtain ⟨e0, e1, e2, e3, e4, e5⟩ := lin3_idx t
  funext j
  obtain ⟨p, q, rfl⟩ : ∃ (p : Fin 5000) (q : Fin 128), j = ix2 p q := ⟨j 0, j 1, eq_ix2 j⟩
  show Gen.k3_pay1 (Gen.iblk3 V c 0 t) (Gen.iblk3 V c 1 t) (ix2 p q)
      = linV (V c main_v44) (V c main_arg5) (((cfg3.win 2).blk t).view.emb (ix2 p q))
  refine (lin3_pay_apply (Gen.iblk3 V c 0 t) (Gen.iblk3 V c 1 t) p q).trans ?_
  unfold linV
  refine Finset.sum_congr rfl fun k _ => ?_
  -- the hidden-layer block's entry (p, k) is the array's entry in the output block's row, column k
  have hx : Gen.iblk3 V c 0 t (ix2 p k)
      = V c main_v44 (ix2 ((((cfg3.win 2).blk t).view.emb (ix2 p q)) 0 : Fin 50000) k) := by
    show V c main_v44 (((cfg3.win 0).blk t).view.emb (ix2 p k)) = _
    refine congrArg (V c main_v44) (funext fun a => Fin.ext ?_)
    match a with
    | ⟨0, _⟩ =>
      show win3_0.index t (0 : Fin 2) * 5000 + 1 * p.val = win3_2.index t (0 : Fin 2) * 5000 + 1 * p.val
      omega
    | ⟨1, _⟩ => show win3_0.index t (1 : Fin 2) * 128 + 1 * k.val = k.val; omega
  -- the weight block's entry (k, q) is the array's entry in row k, the output block's column
  have hw : Gen.iblk3 V c 1 t (ix2 k q)
      = V c main_arg5 (ix2 k ((((cfg3.win 2).blk t).view.emb (ix2 p q)) 1 : Fin 128)) := by
    show V c main_arg5 (((cfg3.win 1).blk t).view.emb (ix2 k q)) = _
    refine congrArg (V c main_arg5) (funext fun a => Fin.ext ?_)
    match a with
    | ⟨0, _⟩ => show win3_1.index t (0 : Fin 2) * 128 + 1 * k.val = k.val; omega
    | ⟨1, _⟩ =>
      show win3_1.index t (1 : Fin 2) * 128 + 1 * q.val = win3_2.index t (1 : Fin 2) * 128 + 1 * q.val
      omega
  exact congrArg₂ (· * ·) hx hw

/-- An index of the product array is in point t's block iff each coordinate is in the block's range on its axis. -/
theorem lin3_mem_blk (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v45).slice (win3_2.rect t)).set ↔ _
  rw [View.set_slice_whole, Rect.mem_set_unit]
  exact Iff.rfl

/-- The ten row blocks tile the 50000 rows: row r is in the block of point r / 5000. -/
theorem lin3_cover (i : S50000x128.Idx) :
    ∃ t : Fin cfg3.N, (cfg3.win 2).flush t = true ∧ i ∈ ((cfg3.win 2).blk t).view.set := by
  have hN : grid3.N = 10 := Gen.N_3
  have hi0 : (i 0).val < 50000 := (i 0).isLt
  have hi1 : (i 1).val < 128 := (i 1).isLt
  have ht : (i 0).val / 5000 < cfg3.N := by show _ < grid3.N; rw [hN]; omega
  obtain ⟨-, -, -, -, e4, e5⟩ := lin3_idx ⟨(i 0).val / 5000, ht⟩
  refine ⟨⟨(i 0).val / 5000, ht⟩, Gen.flush3_2 _, ?_⟩
  rw [lin3_mem_blk]
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win3_2.index ⟨(i 0).val / 5000, ht⟩ (1 : Fin 2) * 128 ≤ (i 1).val
      ∧ (i 1).val < win3_2.index ⟨(i 0).val / 5000, ht⟩ (1 : Fin 2) * 128 + 128
    rw [e5]
    omega

/-- The second projection's output array after the region: the product of the hidden-layer array and the second
    layer's weights as the region finds them. -/
theorem lin3_value : (Gen.dat3 (F := Ideal) V c).arrAt 2 cfg3.N = linV (V c main_v44) (V c main_arg5) :=
  (Gen.dat3 (F := Ideal) V c).arrAt_eq_of_cover 2 (linV (V c main_v44) (V c main_arg5))
    (fun t _ => lin3_flushed V c t) lin3_cover

end Cert.KernelIdeal.Layer

end
-- ==== Proof.LibUnitAxis.lean ====
/-
  Casts and broadcasts across a unit axis, read at an index, at any extents.

  A `keepdims` reduction leaves a unit axis behind, and a row-wise statistic is spread back over its row through one:
  a matrix `[a, b]` is viewed as `[a, 1, b]` and back, a vector `[a]` as the column `[a, 1]`, and a unit axis is
  broadcast over many. A cast keeps every element's row-major position, and a unit axis contributes nothing to it;
  a broadcast reads the operand at the same coordinates, except 0 on each unit axis. The five forms below are stated
  over the literal-size index constructors `ix1 … ix3`, so that they fire on indices built from coordinates.
-/
import Idealize.ShloMosaic.Lib.Pipeline.Value
import Idealize.ShloMosaic.Lib.ValueIdx
import Idealize.ShloMosaic.Lib.ValueLayout
noncomputable section
open Idealize.ShloMosaic Idealize.ShloMosaic.ValueIdx
namespace Cert.Lib.UnitAxis

/-! ## The five forms

A matrix viewed with a unit middle axis and back, a vector viewed as one column, and a unit axis broadcast over
many. Each is a statement about row-major positions (a cast) or about which coordinates are kept (a broadcast). -/

section Layout
variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, b]` array broadcast to `[a, m, b]` reads, at `(p, q, c)`, the operand at `(p, 0, c)`. -/
theorem broadcastTo_a1b_amb_apply {a m b : ℕ} (v : (⟨3, ![a, 1, b]⟩ : Shape).Idx → α)
    (h : (⟨3, ![a, 1, b]⟩ : Shape).Broadcasts ⟨3, ![a, m, b]⟩) (p : Fin a) (q : Fin m) (c : Fin b) :
    broadcastTo ⟨3, ![a, m, b]⟩ v h (ix3 p q c) = v (ix3 p (0 : Fin 1) c) := by
  refine broadcastTo_apply v h (ix3 p q c) (ix3 p (0 : Fin 1) c) fun ax => ?_
  match ax with
  | ⟨0, _⟩ =>
    show p.val = if a = 1 then 0 else p.val
    split
    · have := p.isLt; omega
    · rfl
  | ⟨1, _⟩ => rfl
  | ⟨2, _⟩ =>
    show c.val = if b = 1 then 0 else c.val
    split
    · have := c.isLt; omega
    · rfl

end Layout

end Cert.Lib.UnitAxis

end
-- ==== Proof.RegionMsg.lean ====
/-
  The two edge-message regions of the two-layer graph convolution, each read as ONE function of the arrays it finds.

  A region walks the 600000 edges in 100 blocks of 6000 rows. At each block it multiplies the gathered feature rows
  [6000, 128] by the block's normalisation column (d_src · w) · d_dst, the three factors columns [6000, 1], the product
  column spread over the 128 features. Every window of the region moves with the block number on the row axis and stays at
  0 on the other, so block t of each operand is rows 6000·t … 6000·t + 5999 of its array, and what block t writes back is
  rows 6000·t … 6000·t + 5999 of the edge message of the whole arrays. The 100 blocks cover the 600000 rows (row r is in
  block r / 6000), so the output array ends holding the edge message.
-/
import proofs.«140400_j29326036697585_2_alg».proof.Proof.Gen.KernelIdeal.Frame
import proofs.«140400_j29326036697585_2_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«140400_j29326036697585_2_alg».proof.Proof.LibUnitAxis

noncomputable section

namespace Cert.KernelIdeal.Layer

open Idealize.ShloMosaic Idealize.ShloMosaic.TcCoe Idealize.ShloMosaic.ValueIdx Idealize.SL.Sem Cert.KernelIdeal Cert.KernelIdeal.Gen
open Idealize.ShloMosaic.Pipeline (Dat Cfg Window)

/-- Both offsets of a whole-buffer access are 0. -/
theorem msg_zero_offsets : (![0, 0] : Fin 2 → Nat) = fun _ => 0 := funext fun a => by fin_cases a <;> rfl

/-! # The first message region -/

/-! ## One block's product, entry by entry -/

/-- Entry j = (p, q) of a block's message: the feature entry times the block's normalisation of row p. -/
theorem msg1_block_apply (h : Vec Ideal S6000x128 .f32) (ds ew dd : Vec Ideal S6000x1 .f32) (j : S6000x128.Idx) :
    k1_pay1 ds ew dd h j
      = h j * ((ds (ix2 (j 0 : Fin 6000) (0 : Fin 1)) * ew (ix2 (j 0 : Fin 6000) (0 : Fin 1)))
          * dd (ix2 (j 0 : Fin 6000) (0 : Fin 1))) := by
  obtain ⟨p, q, rfl⟩ : ∃ (p : Fin 6000) (q : Fin 128), j = ix2 p q := ⟨j 0, j 1, eq_ix2 j⟩
  unfold k1_pay1
  simp only [shapeCast_self]
  rw [mulf_apply, Cert.Lib.UnitAxis.broadcastTo_a1_ab_apply, mulf_apply, mulf_apply]

/-! ## Where the blocks sit -/

/-- Every window of the region is at block (t, 0) at point t. -/
theorem msg1_block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Where the operands' blocks sit beside the output's: entry j of the feature block is the array entry that entry j of
    the output block is, and entry (j 0, 0) of each column block is that entry's row at column 0. -/
theorem msg1_blocks_at (t : Fin cfg1.N) (j : S6000x128.Idx) :
    ((cfg1.win 0).blk t).view.emb j = ((cfg1.win 4).blk t).view.emb j
    ∧ ((cfg1.win 1).blk t).view.emb (ix2 (j 0 : Fin 6000) (0 : Fin 1))
        = ix2 (((cfg1.win 4).blk t).view.emb j 0 : Fin 600000) (0 : Fin 1)
    ∧ ((cfg1.win 2).blk t).view.emb (ix2 (j 0 : Fin 6000) (0 : Fin 1))
        = ix2 (((cfg1.win 4).blk t).view.emb j 0 : Fin 600000) (0 : Fin 1)
    ∧ ((cfg1.win 3).blk t).view.emb (ix2 (j 0 : Fin 6000) (0 : Fin 1))
        = ix2 (((cfg1.win 4).blk t).view.emb j 0 : Fin 600000) (0 : Fin 1) := by
  obtain ⟨a0, b0, a1, b1, a2, b2, a3, b3, a4, b4⟩ := msg1_block_index t
  refine ⟨?_, ?_, ?_, ?_⟩ <;> funext a <;> apply Fin.ext
  · match a with
    | ⟨0, _⟩ => show win1_0.index t (0 : Fin 2) * 6000 + 1 * (j 0).val = win1_4.index t (0 : Fin 2) * 6000 + 1 * (j 0).val; omega
    | ⟨1, _⟩ => show win1_0.index t (1 : Fin 2) * 128 + 1 * (j 1).val = win1_4.index t (1 : Fin 2) * 128 + 1 * (j 1).val; omega
  · match a with
    | ⟨0, _⟩ => show win1_1.index t (0 : Fin 2) * 6000 + 1 * (j 0).val = win1_4.index t (0 : Fin 2) * 6000 + 1 * (j 0).val; omega
    | ⟨1, _⟩ => show win1_1.index t (1 : Fin 2) * 1 + 1 * 0 = 0; omega
  · match a with
    | ⟨0, _⟩ => show win1_2.index t (0 : Fin 2) * 6000 + 1 * (j 0).val = win1_4.index t (0 : Fin 2) * 6000 + 1 * (j 0).val; omega
    | ⟨1, _⟩ => show win1_2.index t (1 : Fin 2) * 1 + 1 * 0 = 0; omega
  · match a with
    | ⟨0, _⟩ => show win1_3.index t (0 : Fin 2) * 6000 + 1 * (j 0).val = win1_4.index t (0 : Fin 2) * 6000 + 1 * (j 0).val; omega
    | ⟨1, _⟩ => show win1_3.index t (1 : Fin 2) * 1 + 1 * 0 = 0; omega

/-- One block's message over any four arrays: the operands' blocks read through the windows' rectangles give the
    output window's rectangle of the edge message of the arrays. -/
theorem msg1_block_eq (t : Fin cfg1.N) (h : FVec Ideal S600000x128 .f32) (ds ew dd : FVec Ideal S600000x1 .f32) :
    k1_pay1 (((cfg1.win 1).blk t).view.read (Elt Ideal) ds) (((cfg1.win 2).blk t).view.read (Elt Ideal) ew)
        (((cfg1.win 3).blk t).view.read (Elt Ideal) dd) (((cfg1.win 0).blk t).view.read (Elt Ideal) h)
      = ((cfg1.win 4).blk t).view.read (Elt Ideal) (msgV h ds ew dd) := by
  funext j
  rw [msg1_block_apply]
  obtain ⟨e0, e1, e2, e3⟩ := msg1_blocks_at t j
  show h (((cfg1.win 0).blk t).view.emb j)
        * ((ds (((cfg1.win 1).blk t).view.emb (ix2 (j 0 : Fin 6000) (0 : Fin 1)))
            * ew (((cfg1.win 2).blk t).view.emb (ix2 (j 0 : Fin 6000) (0 : Fin 1))))
          * dd (((cfg1.win 3).blk t).view.emb (ix2 (j 0 : Fin 6000) (0 : Fin 1))))
      = msgV h ds ew dd (((cfg1.win 4).blk t).view.emb j)
  rw [e0, e1, e2, e3]
  rfl

section
variable (V : (c : Dev nD) → (b : Ref sig .tc) → Buf (Elt Ideal) ((c : Thread nD τ).loc b)) (c : Dev nD)

/-! ## What one block writes back -/

/-- Block t writes back rows 6000·t … 6000·t + 5999 of the edge message of the arrays the region finds. -/
theorem msg1_flushed (t : Fin cfg1.N) :
    (dat1 (F := Ideal) V c).flushed 4 t
      = ((cfg1.win 4).blk t).view.read (Elt Ideal) (msgV (V c main_v38) (V c main_v22) (V c main_v31) (V c main_v30)) := by
  show (cfg1.win 4).cut (grid1.coords t) ((dat1 V c).after 4 t) = _
  rw [after1_4]
  unfold out1_4
  rw [View.canon_unit_zero msg_zero_offsets]
  simp only [View.ld_unit_zero (S := S6000x128) msg_zero_offsets, View.ld_unit_zero (S := S6000x1) msg_zero_offsets]
  exact msg1_block_eq t (V c main_v38) (V c main_v22) (V c main_v31) (V c main_v30)

/-! ## The blocks cover the rows -/

/-- An index is in block t's rectangle iff each coordinate is in the block's range on its axis. -/
theorem msg1_mem_block (t : Fin cfg1.N) (i : S600000x128.Idx) :
    i ∈ ((cfg1.win 4).blk t).view.set
      ↔ ∀ a : Fin 2, win1_4.index t a * S6000x128.size a ≤ (i a).val
          ∧ (i a).val < win1_4.index t a * S6000x128.size a + S6000x128.size a := by
  show i ∈ ((View.whole main_v39).slice (win1_4.rect t)).set ↔ _
  rw [View.set_slice_whole, Rect.mem_set_unit]
  exact Iff.rfl

/-- Row r of the message array is written back by block r / 6000. -/
theorem msg1_cover (i : S600000x128.Idx) :
    ∃ t : Fin cfg1.N, (cfg1.win 4).flush t = true ∧ i ∈ ((cfg1.win 4).blk t).view.set := by
  have hN : grid1.N = 100 := N_1
  have hi0 : (i 0).val < 600000 := (i 0).isLt
  have hi1 : (i 1).val < 128 := (i 1).isLt
  obtain ⟨t, ht⟩ : ∃ t : Fin cfg1.N, t.val = (i 0).val / 6000 :=
    ⟨⟨(i 0).val / 6000, by show _ < grid1.N; rw [hN]; omega⟩, rfl⟩
  obtain ⟨-, -, -, -, -, -, -, -, a4, b4⟩ := msg1_block_index t
  refine ⟨t, flush1_4 t, ?_⟩
  rw [msg1_mem_block]
  intro a
  match a with
  | ⟨0, _⟩ =>
    show win1_4.index t (0 : Fin 2) * 6000 ≤ (i 0).val ∧ (i 0).val < win1_4.index t (0 : Fin 2) * 6000 + 6000
    omega
  | ⟨1, _⟩ =>
    show win1_4.index t (1 : Fin 2) * 128 ≤ (i 1).val ∧ (i 1).val < win1_4.index t (1 : Fin 2) * 128 + 128
    omega

/-! ## The array after the region -/

/-- THE FIRST MESSAGE REGION: its output array ends holding the edge message of the arrays it finds. -/
theorem msg1_value :
    (Gen.dat1 (F := Ideal) V c).arrAt 4 cfg1.N = msgV (V c main_v38) (V c main_v22) (V c main_v31) (V c main_v30) :=
  (dat1 V c).arrAt_eq_of_cover 4 (msgV (V c main_v38) (V c main_v22) (V c main_v31) (V c main_v30))
    (fun t _ => msg1_flushed V c t) msg1_cover

end

/-! # The second message region -/

/-! ## One block's product, entry by entry -/

/-- Entry j = (p, q) of a block's message: the feature entry times the block's normalisation of row p. -/
theorem msg4_block_apply (h : Vec Ideal S6000x128 .f32) (ds ew dd : Vec Ideal S6000x1 .f32) (j : S6000x128.Idx) :
    k4_pay1 ds ew dd h j
      = h j * ((ds (ix2 (j 0 : Fin 6000) (0 : Fin 1)) * ew (ix2 (j 0 : Fin 6000) (0 : Fin 1)))
          * dd (ix2 (j 0 : Fin 6000) (0 : Fin 1))) := by
  obtain ⟨p, q, rfl⟩ : ∃ (p : Fin 6000) (q : Fin 128), j = ix2 p q := ⟨j 0, j 1, eq_ix2 j⟩
  unfold k4_pay1
  simp only [shapeCast_self]
  rw [mulf_apply, Cert.Lib.UnitAxis.broadcastTo_a1_ab_apply, mulf_apply, mulf_apply]

/-! ## Where the blocks sit -/

/-- Every window of the region is at block (t, 0) at point t. -/
theorem msg4_block_index : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- Where the operands' blocks sit beside the output's: entry j of the feature block is the array entry that entry j of
    the output block is, and entry (j 0, 0) of each column block is that entry's row at column 0. -/
theorem msg4_blocks_at (t : Fin cfg4.N) (j : S6000x128.Idx) :
    ((cfg4.win 0).blk t).view.emb j = ((cfg4.win 4).blk t).view.emb j
    ∧ ((cfg4.win 1).blk t).view.emb (ix2 (j 0 : Fin 6000) (0 : Fin 1))
        = ix2 (((cfg4.win 4).blk t).view.emb j 0 : Fin 600000) (0 : Fin 1)
    ∧ ((cfg4.win 2).blk t).view.emb (ix2 (j 0 : Fin 6000) (0 : Fin 1))
        = ix2 (((cfg4.win 4).blk t).view.emb j 0 : Fin 600000) (0 : Fin 1)
    ∧ ((cfg4.win 3).blk t).view.emb (ix2 (j 0 : Fin 6000) (0 : Fin 1))
        = ix2 (((cfg4.win 4).blk t).view.emb j 0 : Fin 600000) (0 : Fin 1) := by
  obtain ⟨a0, b0, a1, b1, a2, b2, a3, b3, a4, b4⟩ := msg4_block_index t
  refine ⟨?_, ?_, ?_, ?_⟩ <;> funext a <;> apply Fin.ext
  · match a with
    | ⟨0, _⟩ => show win4_0.index t (0 : Fin 2) * 6000 + 1 * (j 0).val = win4_4.index t (0 : Fin 2) * 6000 + 1 * (j 0).val; omega
    | ⟨1, _⟩ => show win4_0.index t (1 : Fin 2) * 128 + 1 * (j 1).val = win4_4.index t (1 : Fin 2) * 128 + 1 * (j 1).val; omega
  · match a with
    | ⟨0, _⟩ => show win4_1.index t (0 : Fin 2) * 6000 + 1 * (j 0).val = win4_4.index t (0 : Fin 2) * 6000 + 1 * (j 0).val; omega
    | ⟨1, _⟩ => show win4_1.index t (1 : Fin 2) * 1 + 1 * 0 = 0; omega
  · match a with
    | ⟨0, _⟩ => show win4_2.index t (0 : Fin 2) * 6000 + 1 * (j 0).val = win4_4.index t (0 : Fin 2) * 6000 + 1 * (j 0).val; omega
    | ⟨1, _⟩ => show win4_2.index t (1 : Fin 2) * 1 + 1 * 0 = 0; omega
  · match a with
    | ⟨0, _⟩ => show win4_3.index t (0 : Fin 2) * 6000 + 1 * (j 0).val = win4_4.index t (0 : Fin 2) * 6000 + 1 * (j 0).val; omega
    | ⟨1, _⟩ => show win4_3.index t (1 : Fin 2) * 1 + 1 * 0 = 0; omega

/-- One block's message over any four arrays: the operands' blocks read through the windows' rectangles give the
    output window's rectangle of the edge message of the arrays. -/
theorem msg4_block_eq (t : Fin cfg4.N) (h : FVec Ideal S600000x128 .f32) (ds ew dd : FVec Ideal S600000x1 .f32) :
    k4_pay1 (((cfg4.win 1).blk t).view.read (Elt Ideal) ds) (((cfg4.win 2).blk t).view.read (Elt Ideal) ew)
        (((cfg4.win 3).blk t).view.read (Elt Ideal) dd) (((cfg4.win 0).blk t).view.read (Elt Ideal) h)
      = ((cfg4.win 4).blk t).view.read (Elt Ideal) (msgV h ds ew dd) := by
  funext j
  rw [msg4_block_apply]
  obtain ⟨e0, e1, e2, e3⟩ := msg4_blocks_at t j
  show h (((cfg4.win 0).blk t).view.emb j)
        * ((ds (((cfg4.win 1).blk t).view.emb (ix2 (j 0 : Fin 6000) (0 : Fin 1)))
            * ew (((cfg4.win 2).blk t).view.emb (ix2 (j 0 : Fin 6000) (0 : Fin 1))))
          * dd (((cfg4.win 3).blk t).view.emb (ix2 (j 0 : Fin 6000) (0 : Fin 1))))
      = msgV h ds ew dd (((cfg4.win 4).blk t).view.emb j)
  rw [e0, e1, e2, e3]
  rfl

section
variable (V : (c : Dev nD) → (b : Ref sig .tc) → Buf (Elt Ideal) ((c : Thread nD τ).loc b)) (c : Dev nD)

/-! ## What one block writes back -/

/-- Block t writes back rows 6000·t … 6000·t + 5999 of the edge message of the arrays the region finds. -/
theorem msg4_flushed (t : Fin cfg4.N) :
    (dat4 (F := Ideal) V c).flushed 4 t
      = ((cfg4.win 4).blk t).view.read (Elt Ideal) (msgV (V c main_v79) (V c main_v63) (V c main_v72) (V c main_v71)) := by
  show (cfg4.win 4).cut (grid4.coords t) ((dat4 V c).after 4 t) = _
  rw [after4_4]
  unfold out4_4
  rw [View.canon_unit_zero msg_zero_offsets]
  simp only [View.ld_unit_zero (S := S6000x128) msg_zero_offsets, View.ld_unit_zero (S := S6000x1) msg_zero_offsets]
  exact msg4_block_eq t (V c main_v79) (V c main_v63) (V c main_v72) (V c main_v71)

/-! ## The blocks cover the rows -/

/-- An index is in block t's rectangle iff each coordinate is in the block's range on its axis. -/
theorem msg4_mem_block (t : Fin cfg4.N) (i : S600000x128.Idx) :
    i ∈ ((cfg4.win 4).blk t).view.set
      ↔ ∀ a : Fin 2, win4_4.index t a * S6000x128.size a ≤ (i a).val
          ∧ (i a).val < win4_4.index t a * S6000x128.size a + S6000x128.size a := by
  show i ∈ ((View.whole main_v80).slice (win4_4.rect t)).set ↔ _
  rw [View.set_slice_whole, Rect.mem_set_unit]
  exact Iff.rfl

/-- Row r of the message array is written back by block r / 6000. -/
theorem msg4_cover (i : S600000x128.Idx) :
    ∃ t : Fin cfg4.N, (cfg4.win 4).flush t = true ∧ i ∈ ((cfg4.win 4).blk t).view.set := by
  have hN : grid4.N = 100 := N_4
  have hi0 : (i 0).val < 600000 := (i 0).isLt
  have hi1 : (i 1).val < 128 := (i 1).isLt
  obtain ⟨t, ht⟩ : ∃ t : Fin cfg4.N, t.val = (i 0).val / 6000 :=
    ⟨⟨(i 0).val / 6000, by show _ < grid4.N; rw [hN]; omega⟩, rfl⟩
  obtain ⟨-, -, -, -, -, -, -, -, a4, b4⟩ := msg4_block_index t
  refine ⟨t, flush4_4 t, ?_⟩
  rw [msg4_mem_block]
  intro a
  match a with
  | ⟨0, _⟩ =>
    show win4_4.index t (0 : Fin 2) * 6000 ≤ (i 0).val ∧ (i 0).val < win4_4.index t (0 : Fin 2) * 6000 + 6000
    omega
  | ⟨1, _⟩ =>
    show win4_4.index t (1 : Fin 2) * 128 ≤ (i 1).val ∧ (i 1).val < win4_4.index t (1 : Fin 2) * 128 + 128
    omega

/-! ## The array after the region -/

/-- THE SECOND MESSAGE REGION: its output array ends holding the edge message of the arrays it finds. -/
theorem msg4_value :
    (Gen.dat4 (F := Ideal) V c).arrAt 4 cfg4.N = msgV (V c main_v79) (V c main_v63) (V c main_v72) (V c main_v71) :=
  (dat4 V c).arrAt_eq_of_cover 4 (msgV (V c main_v79) (V c main_v63) (V c main_v72) (V c main_v71))
    (fun t _ => msg4_flushed V c t) msg4_cover

end

end Cert.KernelIdeal.Layer

end
-- ==== Proof.RegionFin.lean ====
/-
  The node update of a graph convolution, from blocks to the whole array.

  Each of the two node-update regions walks ten blocks of 5000 rows. At block row t it reads block t of the aggregated
  messages, of the node features and of the degree column, and the one block of the bias row, and stores
  (agg + h · (d · d)) + b over block t of the result — clamped at zero in the first layer, not clamped in the second.
  Read at an index, the stored block is the specification's function of the four arrays at the index the block's
  rectangle gives: the column [5000, 1] is spread along each row and the row [1, 128] down each column, so the degree
  is read at the row and the bias at the column. The ten blocks tile the 50000 rows (row r lies in block r / 5000), so
  the result array ends holding the specification's function everywhere.
-/
import proofs.«140400_j29326036697585_2_alg».proof.Proof.Gen.KernelIdeal.Frame
import proofs.«140400_j29326036697585_2_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«140400_j29326036697585_2_alg».proof.Proof.LibUnitAxis

noncomputable section

namespace Cert.KernelIdeal.Layer

open Idealize.ShloMosaic Idealize.ShloMosaic.TcCoe Idealize.ShloMosaic.ValueIdx Idealize.SL.Sem Cert.KernelIdeal Cert.KernelIdeal.Gen
open Idealize.ShloMosaic.Pipeline (Dat Cfg Window)

/-- The zero offsets of a whole-block access, as the constant function. -/
theorem fin_zero_offsets : (![0, 0] : Fin 2 → Nat) = fun _ => 0 := funext fun a => by fin_cases a <;> rfl

/-! ## The clamped node update -/

/-- The clamped update's payload at (p, q): the degree column is read twice and multiplied, spread along the row,
    the bias row is spread down the columns, and the sum is clamped at the zero word. -/
theorem finRelu_payload (d : Vec Ideal S5000x1 .f32) (agg h : Vec Ideal S5000x128 .f32) (b : Vec Ideal S1x128 .f32)
    (p : Fin 5000) (q : Fin 128) :
    Gen.k2_pay1 d d agg h b (ix2 p q)
      = max ((agg (ix2 p q) + h (ix2 p q) * (d (ix2 p (0 : Fin 1)) * d (ix2 p (0 : Fin 1)))) + b (ix2 (0 : Fin 1) q))
          (Ideal.ofBits .f32 0x00000000#32) := by
  unfold Gen.k2_pay1
  simp only [shapeCast_self]
  rw [maximumf_apply, addf_apply, addf_apply, mulf_apply, Cert.Lib.UnitAxis.broadcastTo_a1_ab_apply,
    broadcastTo_1b_ab_apply, mulf_apply, broadcast_apply]
  rfl

variable (V : (c : Dev nD) → (b : Ref sig .tc) → Buf (Elt Ideal) ((c : Thread nD τ).loc b)) (c : Dev nD)

/-- The clamped update's payload over blocks that hold the arrays' entries: when the aggregate and feature blocks at
    (p, q) hold the arrays' entries at i, the degree block at row p the degree of row i₀ and the bias block at column q
    the bias of column i₁, the payload at (p, q) is the clamped update at i. -/
theorem finRelu_point (A H : FVec Ideal S50000x128 .f32) (D : FVec Ideal S50000x1 .f32) (B : FVec Ideal S1x128 .f32)
    (x0 x1 : Vec Ideal S5000x128 .f32) (x2 : Vec Ideal S5000x1 .f32) (x3 : Vec Ideal S1x128 .f32)
    (p : Fin 5000) (q : Fin 128) (i : S50000x128.Idx)
    (e0 : x0 (ix2 p q) = A i) (e1 : x1 (ix2 p q) = H i)
    (e2 : x2 (ix2 p (0 : Fin 1)) = D (ix2 (i 0 : Fin 50000) (0 : Fin 1)))
    (e3 : x3 (ix2 (0 : Fin 1) q) = B (ix2 (0 : Fin 1) (i 1 : Fin 128))) :
    Gen.k2_pay1 x2 x2 x0 x1 x3 (ix2 p q) = finReluV A H D B i := by
  rw [finRelu_payload, e0, e1, e2, e3]
  rfl

/-- The index maps of the clamped update, decided over its ten grid points: point t works on block row t of the
    aggregate, the features, the degree column and the result, and on the one block of the bias row. -/
theorem finRelu_index : ∀ t : Fin cfg2.N,
    win2_4.index t (0 : Fin 2) = t.val ∧ win2_4.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0 :=
  (by decide +kernel : ∀ t : Fin grid2.N, _)

/-- What point t writes back is block t of the clamped update of the arrays as the region finds them. -/
theorem finRelu_flushed (t : Fin cfg2.N) :
    (Gen.dat2 (F := Ideal) V c).flushed 4 t
      = ((cfg2.win 4).blk t).view.read (Elt Ideal)
          (finReluV (V c main_v42) (V c main_v4) (V c main_v14) (V c main_v43)) := by
  show (cfg2.win 4).cut (grid2.coords t) ((Gen.dat2 V c).after 4 t) = _
  rw [Gen.after2_4]
  unfold Gen.out2_4
  rw [View.canon_unit_zero fin_zero_offsets]
  simp only [View.ld_unit_zero (S := S5000x1) fin_zero_offsets, View.ld_unit_zero (S := S5000x128) fin_zero_offsets,
    View.ld_unit_zero (S := S1x128) fin_zero_offsets]
  obtain ⟨o0, o1, a0, a1, h0, h1, d0, d1, b0, b1⟩ := finRelu_index t
  refine funext fun (j : S5000x128.Idx) => ?_
  obtain ⟨p, q, rfl⟩ : ∃ (p : Fin 5000) (q : Fin 128), j = ix2 p q := ⟨j 0, j 1, eq_ix2 j⟩
  show Gen.k2_pay1 (Gen.iblk2 V c 2 t) (Gen.iblk2 V c 2 t) (Gen.iblk2 V c 0 t) (Gen.iblk2 V c 1 t) (Gen.iblk2 V c 3 t)
      (ix2 p q)
    = finReluV (V c main_v42) (V c main_v4) (V c main_v14) (V c main_v43) (((cfg2.win 4).blk t).view.emb (ix2 p q))
  refine finRelu_point _ _ _ _ _ _ _ _ _ _ _ ?_ ?_ ?_ ?_
  · show V c main_v42 (((cfg2.win 0).blk t).view.emb (ix2 p q)) = V c main_v42 (((cfg2.win 4).blk t).view.emb (ix2 p q))
    have e : ((cfg2.win 0).blk t).view.emb (ix2 p q) = ((cfg2.win 4).blk t).view.emb (ix2 p q) := by
      funext a; apply Fin.ext
      match a with
      | ⟨0, _⟩ => show win2_0.index t (0 : Fin 2) * 5000 + 1 * p.val = win2_4.index t (0 : Fin 2) * 5000 + 1 * p.val; omega
      | ⟨1, _⟩ => show win2_0.index t (1 : Fin 2) * 128 + 1 * q.val = win2_4.index t (1 : Fin 2) * 128 + 1 * q.val; omega
    rw [e]
  · show V c main_v4 (((cfg2.win 1).blk t).view.emb (ix2 p q)) = V c main_v4 (((cfg2.win 4).blk t).view.emb (ix2 p q))
    have e : ((cfg2.win 1).blk t).view.emb (ix2 p q) = ((cfg2.win 4).blk t).view.emb (ix2 p q) := by
      funext a; apply Fin.ext
      match a with
      | ⟨0, _⟩ => show win2_1.index t (0 : Fin 2) * 5000 + 1 * p.val = win2_4.index t (0 : Fin 2) * 5000 + 1 * p.val; omega
      | ⟨1, _⟩ => show win2_1.index t (1 : Fin 2) * 128 + 1 * q.val = win2_4.index t (1 : Fin 2) * 128 + 1 * q.val; omega
    rw [e]
  · show V c main_v14 (((cfg2.win 2).blk t).view.emb (ix2 p (0 : Fin 1)))
      = V c main_v14 (ix2 (((cfg2.win 4).blk t).view.emb (ix2 p q) 0 : Fin 50000) (0 : Fin 1))
    have e : ((cfg2.win 2).blk t).view.emb (ix2 p (0 : Fin 1))
        = ix2 (((cfg2.win 4).blk t).view.emb (ix2 p q) 0 : Fin 50000) (0 : Fin 1) := by
      funext a; apply Fin.ext
      match a with
      | ⟨0, _⟩ => show win2_2.index t (0 : Fin 2) * 5000 + 1 * p.val = win2_4.index t (0 : Fin 2) * 5000 + 1 * p.val; omega
      | ⟨1, _⟩ => show win2_2.index t (1 : Fin 2) * 1 + 1 * 0 = 0; omega
    rw [e]
    rfl
  · show V c main_v43 (((cfg2.win 3).blk t).view.emb (ix2 (0 : Fin 1) q))
      = V c main_v43 (ix2 (0 : Fin 1) (((cfg2.win 4).blk t).view.emb (ix2 p q) 1 : Fin 128))
    have e : ((cfg2.win 3).blk t).view.emb (ix2 (0 : Fin 1) q)
        = ix2 (0 : Fin 1) (((cfg2.win 4).blk t).view.emb (ix2 p q) 1 : Fin 128) := by
      funext a; apply Fin.ext
      match a with
      | ⟨0, _⟩ => show win2_3.index t (0 : Fin 2) * 1 + 1 * 0 = 0; omega
      | ⟨1, _⟩ => show win2_3.index t (1 : Fin 2) * 128 + 1 * q.val = win2_4.index t (1 : Fin 2) * 128 + 1 * q.val; omega
    rw [e]
    rfl

/-- An index of the result is in point t's block iff each coordinate is in the block's range on its axis. -/
theorem finRelu_mem_block (t : Fin cfg2.N) (i : S50000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v44).slice (win2_4.rect t)).set ↔ _
  rw [View.set_slice_whole, Rect.mem_set_unit]
  exact Iff.rfl

/-- The ten blocks of 5000 rows tile the result: row r is in the block of point r / 5000. -/
theorem finRelu_cover (i : S50000x128.Idx) :
    ∃ t : Fin cfg2.N, (cfg2.win 4).flush t = true ∧ i ∈ ((cfg2.win 4).blk t).view.set := by
  have hN : grid2.N = 10 := Gen.N_2
  have hi0 : (i 0).val < 50000 := idx2_lt0 i
  have hi1 : (i 1).val < 128 := idx2_lt1 i
  have ht : (i 0).val / 5000 < grid2.N := by omega
  obtain ⟨o0, o1, -⟩ := finRelu_index ⟨(i 0).val / 5000, ht⟩
  refine ⟨⟨(i 0).val / 5000, ht⟩, Gen.flush2_4 _, ?_⟩
  rw [finRelu_mem_block]
  intro a
  match a with
  | ⟨0, _⟩ =>
    show win2_4.index ⟨(i 0).val / 5000, ht⟩ (0 : Fin 2) * 5000 ≤ (i 0).val
      ∧ (i 0).val < win2_4.index ⟨(i 0).val / 5000, ht⟩ (0 : Fin 2) * 5000 + 5000
    rw [o0]
    show (i 0).val / 5000 * 5000 ≤ (i 0).val ∧ (i 0).val < (i 0).val / 5000 * 5000 + 5000
    omega
  | ⟨1, _⟩ =>
    show win2_4.index ⟨(i 0).val / 5000, ht⟩ (1 : Fin 2) * 128 ≤ (i 1).val
      ∧ (i 1).val < win2_4.index ⟨(i 0).val / 5000, ht⟩ (1 : Fin 2) * 128 + 128
    rw [o1]
    omega

/-- The result array of the clamped node update after the run: the clamped update of the arrays the region finds. -/
theorem fin2_value : (Gen.dat2 (F := Ideal) V c).arrAt 4 cfg2.N
    = finReluV (V c main_v42) (V c main_v4) (V c main_v14) (V c main_v43) :=
  (Gen.dat2 (F := Ideal) V c).arrAt_eq_of_cover 4 (finReluV (V c main_v42) (V c main_v4) (V c main_v14) (V c main_v43))
    (fun t _ => finRelu_flushed V c t) finRelu_cover

/-! ## The node update without the clamp -/

/-- The unclamped update's payload at (p, q): the degree column is read twice and multiplied, spread along the row,
    and the bias row is spread down the columns. -/
theorem fin_payload (d : Vec Ideal S5000x1 .f32) (agg h : Vec Ideal S5000x128 .f32) (b : Vec Ideal S1x128 .f32)
    (p : Fin 5000) (q : Fin 128) :
    Gen.k5_pay1 d d agg h b (ix2 p q)
      = (agg (ix2 p q) + h (ix2 p q) * (d (ix2 p (0 : Fin 1)) * d (ix2 p (0 : Fin 1)))) + b (ix2 (0 : Fin 1) q) := by
  unfold Gen.k5_pay1
  simp only [shapeCast_self]
  rw [addf_apply, addf_apply, mulf_apply, Cert.Lib.UnitAxis.broadcastTo_a1_ab_apply, broadcastTo_1b_ab_apply,
    mulf_apply]

/-- The unclamped update's payload over blocks that hold the arrays' entries: when the aggregate and feature blocks at
    (p, q) hold the arrays' entries at i, the degree block at row p the degree of row i₀ and the bias block at column q
    the bias of column i₁, the payload at (p, q) is the unclamped update at i. -/
theorem fin_point (A H : FVec Ideal S50000x128 .f32) (D : FVec Ideal S50000x1 .f32) (B : FVec Ideal S1x128 .f32)
    (x0 x1 : Vec Ideal S5000x128 .f32) (x2 : Vec Ideal S5000x1 .f32) (x3 : Vec Ideal S1x128 .f32)
    (p : Fin 5000) (q : Fin 128) (i : S50000x128.Idx)
    (e0 : x0 (ix2 p q) = A i) (e1 : x1 (ix2 p q) = H i)
    (e2 : x2 (ix2 p (0 : Fin 1)) = D (ix2 (i 0 : Fin 50000) (0 : Fin 1)))
    (e3 : x3 (ix2 (0 : Fin 1) q) = B (ix2 (0 : Fin 1) (i 1 : Fin 128))) :
    Gen.k5_pay1 x2 x2 x0 x1 x3 (ix2 p q) = finV A H D B i := by
  rw [fin_payload, e0, e1, e2, e3]
  rfl

/-- The index maps of the unclamped update, decided over its ten grid points: point t works on block row t of the
    aggregate, the features, the degree column and the result, and on the one block of the bias row. -/
theorem fin_index : ∀ t : Fin cfg5.N,
    win5_4.index t (0 : Fin 2) = t.val ∧ win5_4.index t (1 : Fin 2) = 0
    ∧ win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0 :=
  (by decide +kernel : ∀ t : Fin grid5.N, _)

set_option maxHeartbeats 1000000 in
/-- What point t writes back is block t of the unclamped update of the arrays as the region finds them. -/
theorem fin_flushed (t : Fin cfg5.N) :
    (Gen.dat5 (F := Ideal) V c).flushed 4 t
      = ((cfg5.win 4).blk t).view.read (Elt Ideal)
          (finV (V c main_v83) (V c main_v45) (V c main_v55) (V c main_v84)) := by
  show (cfg5.win 4).cut (grid5.coords t) ((Gen.dat5 V c).after 4 t) = _
  rw [Gen.after5_4]
  unfold Gen.out5_4
  rw [View.canon_unit_zero fin_zero_offsets]
  simp only [View.ld_unit_zero (S := S5000x1) fin_zero_offsets, View.ld_unit_zero (S := S5000x128) fin_zero_offsets,
    View.ld_unit_zero (S := S1x128) fin_zero_offsets]
  obtain ⟨o0, o1, a0, a1, h0, h1, d0, d1, b0, b1⟩ := fin_index t
  refine funext fun (j : S5000x128.Idx) => ?_
  obtain ⟨p, q, rfl⟩ : ∃ (p : Fin 5000) (q : Fin 128), j = ix2 p q := ⟨j 0, j 1, eq_ix2 j⟩
  show Gen.k5_pay1 (Gen.iblk5 V c 2 t) (Gen.iblk5 V c 2 t) (Gen.iblk5 V c 0 t) (Gen.iblk5 V c 1 t) (Gen.iblk5 V c 3 t)
      (ix2 p q)
    = finV (V c main_v83) (V c main_v45) (V c main_v55) (V c main_v84) (((cfg5.win 4).blk t).view.emb (ix2 p q))
  refine fin_point _ _ _ _ _ _ _ _ _ _ _ ?_ ?_ ?_ ?_
  · show V c main_v83 (((cfg5.win 0).blk t).view.emb (ix2 p q)) = V c main_v83 (((cfg5.win 4).blk t).view.emb (ix2 p q))
    have e : ((cfg5.win 0).blk t).view.emb (ix2 p q) = ((cfg5.win 4).blk t).view.emb (ix2 p q) := by
      funext a; apply Fin.ext
      match a with
      | ⟨0, _⟩ => show win5_0.index t (0 : Fin 2) * 5000 + 1 * p.val = win5_4.index t (0 : Fin 2) * 5000 + 1 * p.val; omega
      | ⟨1, _⟩ => show win5_0.index t (1 : Fin 2) * 128 + 1 * q.val = win5_4.index t (1 : Fin 2) * 128 + 1 * q.val; omega
    rw [e]
  · show V c main_v45 (((cfg5.win 1).blk t).view.emb (ix2 p q)) = V c main_v45 (((cfg5.win 4).blk t).view.emb (ix2 p q))
    have e : ((cfg5.win 1).blk t).view.emb (ix2 p q) = ((cfg5.win 4).blk t).view.emb (ix2 p q) := by
      funext a; apply Fin.ext
      match a with
      | ⟨0, _⟩ => show win5_1.index t (0 : Fin 2) * 5000 + 1 * p.val = win5_4.index t (0 : Fin 2) * 5000 + 1 * p.val; omega
      | ⟨1, _⟩ => show win5_1.index t (1 : Fin 2) * 128 + 1 * q.val = win5_4.index t (1 : Fin 2) * 128 + 1 * q.val; omega
    rw [e]
  · show V c main_v55 (((cfg5.win 2).blk t).view.emb (ix2 p (0 : Fin 1)))
      = V c main_v55 (ix2 (((cfg5.win 4).blk t).view.emb (ix2 p q) 0 : Fin 50000) (0 : Fin 1))
    have e : ((cfg5.win 2).blk t).view.emb (ix2 p (0 : Fin 1))
        = ix2 (((cfg5.win 4).blk t).view.emb (ix2 p q) 0 : Fin 50000) (0 : Fin 1) := by
      funext a; apply Fin.ext
      match a with
      | ⟨0, _⟩ => show win5_2.index t (0 : Fin 2) * 5000 + 1 * p.val = win5_4.index t (0 : Fin 2) * 5000 + 1 * p.val; omega
      | ⟨1, _⟩ => show win5_2.index t (1 : Fin 2) * 1 + 1 * 0 = 0; omega
    rw [e]
    rfl
  · show V c main_v84 (((cfg5.win 3).blk t).view.emb (ix2 (0 : Fin 1) q))
      = V c main_v84 (ix2 (0 : Fin 1) (((cfg5.win 4).blk t).view.emb (ix2 p q) 1 : Fin 128))
    have e : ((cfg5.win 3).blk t).view.emb (ix2 (0 : Fin 1) q)
        = ix2 (0 : Fin 1) (((cfg5.win 4).blk t).view.emb (ix2 p q) 1 : Fin 128) := by
      funext a; apply Fin.ext
      match a with
      | ⟨0, _⟩ => show win5_3.index t (0 : Fin 2) * 1 + 1 * 0 = 0; omega
      | ⟨1, _⟩ => show win5_3.index t (1 : Fin 2) * 128 + 1 * q.val = win5_4.index t (1 : Fin 2) * 128 + 1 * q.val; omega
    rw [e]
    rfl

/-- An index of the result is in point t's block iff each coordinate is in the block's range on its axis. -/
theorem fin_mem_block (t : Fin cfg5.N) (i : S50000x128.Idx) :
    i ∈ ((cfg5.win 4).blk t).view.set ↔ ∀ a : Fin 2, win5_4.index t a * S5000x128.size a ≤ (i a).val
      ∧ (i a).val < win5_4.index t a * S5000x128.size a + S5000x128.size a := by
  show i ∈ ((View.whole main_v85).slice (win5_4.rect t)).set ↔ _
  rw [View.set_slice_whole, Rect.mem_set_unit]
  exact Iff.rfl

/-- The ten blocks of 5000 rows tile the result: row r is in the block of point r / 5000. -/
theorem fin_cover (i : S50000x128.Idx) :
    ∃ t : Fin cfg5.N, (cfg5.win 4).flush t = true ∧ i ∈ ((cfg5.win 4).blk t).view.set := by
  have hN : grid5.N = 10 := Gen.N_5
  have hi0 : (i 0).val < 50000 := idx2_lt0 i
  have hi1 : (i 1).val < 128 := idx2_lt1 i
  have ht : (i 0).val / 5000 < grid5.N := by omega
  obtain ⟨o0, o1, -⟩ := fin_index ⟨(i 0).val / 5000, ht⟩
  refine ⟨⟨(i 0).val / 5000, ht⟩, Gen.flush5_4 _, ?_⟩
  rw [fin_mem_block]
  intro a
  match a with
  | ⟨0, _⟩ =>
    show win5_4.index ⟨(i 0).val / 5000, ht⟩ (0 : Fin 2) * 5000 ≤ (i 0).val
      ∧ (i 0).val < win5_4.index ⟨(i 0).val / 5000, ht⟩ (0 : Fin 2) * 5000 + 5000
    rw [o0]
    show (i 0).val / 5000 * 5000 ≤ (i 0).val ∧ (i 0).val < (i 0).val / 5000 * 5000 + 5000
    omega
  | ⟨1, _⟩ =>
    show win5_4.index ⟨(i 0).val / 5000, ht⟩ (1 : Fin 2) * 128 ≤ (i 1).val
      ∧ (i 1).val < win5_4.index ⟨(i 0).val / 5000, ht⟩ (1 : Fin 2) * 128 + 128
    rw [o1]
    omega

/-- The result array of the unclamped node update after the run: the unclamped update of the arrays the region finds. -/
theorem fin5_value : (Gen.dat5 (F := Ideal) V c).arrAt 4 cfg5.N
    = finV (V c main_v83) (V c main_v45) (V c main_v55) (V c main_v84) :=
  (Gen.dat5 (F := Ideal) V c).arrAt_eq_of_cover 4 (finV (V c main_v83) (V c main_v45) (V c main_v55) (V c main_v84))
    (fun t _ => fin_flushed V c t) fin_cover

end Cert.KernelIdeal.Layer

end
-- ==== Proof.KernelValue.lean ====
/-
  The kernel program's result array as a function of its arguments. The program's buffers are followed through its
  fifteen segments: a stretch of host operations rewrites the buffers it writes by pure functions of the contents before
  it and leaves the others; a kernel region leaves in its output array the region's function of its input arrays and
  leaves every other buffer alone. Each buffer that a later segment reads is named by what it holds:
  the edge endpoints, the normaliser dinv, its gathers at the endpoints, the projected features h = x · W, the
  messages, their aggregation, the first layer's clamped output, and the same again for the second layer.
  The result array ends at layer 2 (without clamp) of layer 1 (clamped) of the arguments.
-/
import proofs.«140400_j29326036697585_2_alg».proof.Proof.Gen.KernelIdeal.Frame
import proofs.«140400_j29326036697585_2_alg».proof.Proof.HostStages
import proofs.«140400_j29326036697585_2_alg».proof.Proof.RegionLin
import proofs.«140400_j29326036697585_2_alg».proof.Proof.RegionMsg
import proofs.«140400_j29326036697585_2_alg».proof.Proof.RegionFin

set_option maxRecDepth 16384

noncomputable section

namespace Cert.KernelIdeal.Layer

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ### Boundary 1: after the host stretch -/

theorem w1_v1 : W1 m ρ c (Proc.devRef .tc main_v1) = (edgeSrc (m ((c : Thread nD τ).loc main_arg1))) :=
  (h0_v1 (W0 m ρ c))
theorem w1_v3 : W1 m ρ c (Proc.devRef .tc main_v3) = (edgeDst (m ((c : Thread nD τ).loc main_arg1))) :=
  (h0_v3 (W0 m ρ c))
theorem w1_arg0 : W1 m ρ c (Proc.devRef .tc main_arg0) = (m ((c : Thread nD τ).loc main_arg0)) :=
  (keep_h0_arg0 (W0 m ρ c))
theorem w1_arg2 : W1 m ρ c (Proc.devRef .tc main_arg2) = (m ((c : Thread nD τ).loc main_arg2)) :=
  (keep_h0_arg2 (W0 m ρ c))
theorem w1_arg3 : W1 m ρ c (Proc.devRef .tc main_arg3) = (m ((c : Thread nD τ).loc main_arg3)) :=
  (keep_h0_arg3 (W0 m ρ c))
theorem w1_arg4 : W1 m ρ c (Proc.devRef .tc main_arg4) = (m ((c : Thread nD τ).loc main_arg4)) :=
  (keep_h0_arg4 (W0 m ρ c))
theorem w1_arg5 : W1 m ρ c (Proc.devRef .tc main_arg5) = (m ((c : Thread nD τ).loc main_arg5)) :=
  (keep_h0_arg5 (W0 m ρ c))
theorem w1_arg6 : W1 m ρ c (Proc.devRef .tc main_arg6) = (m ((c : Thread nD τ).loc main_arg6)) :=
  (keep_h0_arg6 (W0 m ρ c))

/-! ### Boundary 2: after region 0 -/

theorem w2_v4 : W2 m ρ c (Proc.devRef .tc main_v4) = (linV (m ((c : Thread nD τ).loc main_arg0)) (m ((c : Thread nD τ).loc main_arg3))) := by
  refine (W2_arr m ρ c 2).trans ((lin0_value (V1 m ρ) c).trans ?_)
  show linV (W1 m ρ c (Proc.devRef .tc main_arg0)) (W1 m ρ c (Proc.devRef .tc main_arg3)) = _
  rw [w1_arg0 m ρ c, w1_arg3 m ρ c] <;> rfl
theorem w2_v1 : W2 m ρ c (Proc.devRef .tc main_v1) = (edgeSrc (m ((c : Thread nD τ).loc main_arg1))) :=
  (W2_of_ne m ρ c main_v1 (by decide)).trans (w1_v1 m ρ c)
theorem w2_v3 : W2 m ρ c (Proc.devRef .tc main_v3) = (edgeDst (m ((c : Thread nD τ).loc main_arg1))) :=
  (W2_of_ne m ρ c main_v3 (by decide)).trans (w1_v3 m ρ c)
theorem w2_arg2 : W2 m ρ c (Proc.devRef .tc main_arg2) = (m ((c : Thread nD τ).loc main_arg2)) :=
  (W2_of_ne m ρ c main_arg2 (by decide)).trans (w1_arg2 m ρ c)
theorem w2_arg4 : W2 m ρ c (Proc.devRef .tc main_arg4) = (m ((c : Thread nD τ).loc main_arg4)) :=
  (W2_of_ne m ρ c main_arg4 (by decide)).trans (w1_arg4 m ρ c)
theorem w2_arg5 : W2 m ρ c (Proc.devRef .tc main_arg5) = (m ((c : Thread nD τ).loc main_arg5)) :=
  (W2_of_ne m ρ c main_arg5 (by decide)).trans (w1_arg5 m ρ c)
theorem w2_arg6 : W2 m ρ c (Proc.devRef .tc main_arg6) = (m ((c : Thread nD τ).loc main_arg6)) :=
  (W2_of_ne m ρ c main_arg6 (by decide)).trans (w1_arg6 m ρ c)

/-! ### Boundary 3: after the host stretch -/

theorem w3_v11 : W3 m ρ c (Proc.devRef .tc main_v11) = (degPos (edgeDst (m ((c : Thread nD τ).loc main_arg1))) (m ((c : Thread nD τ).loc main_arg2))) :=
  (h1_v11 (W2 m ρ c)).trans (by rw [w2_v3 m ρ c, w2_arg2 m ρ c])
theorem w3_v12 : W3 m ρ c (Proc.devRef .tc main_v12) = (Host.rsqrt (F := Ideal) (s := S50000) (φ := .f32) (degOf (edgeDst (m ((c : Thread nD τ).loc main_arg1))) (m ((c : Thread nD τ).loc main_arg2)))) :=
  (h1_v12 (W2 m ρ c)).trans (by rw [w2_v3 m ρ c, w2_arg2 m ρ c])
theorem w3_cst_2 : W3 m ρ c (Proc.devRef .tc main_cst_2) = (constant (F := Ideal) S_ .f32 0x00000000#32) :=
  (h1_cst (W2 m ρ c))
theorem w3_v4 : W3 m ρ c (Proc.devRef .tc main_v4) = (linV (m ((c : Thread nD τ).loc main_arg0)) (m ((c : Thread nD τ).loc main_arg3))) :=
  (keep_h1_v4 (W2 m ρ c)).trans (w2_v4 m ρ c)
theorem w3_v1 : W3 m ρ c (Proc.devRef .tc main_v1) = (edgeSrc (m ((c : Thread nD τ).loc main_arg1))) :=
  (keep_h1_v1 (W2 m ρ c)).trans (w2_v1 m ρ c)
theorem w3_v3 : W3 m ρ c (Proc.devRef .tc main_v3) = (edgeDst (m ((c : Thread nD τ).loc main_arg1))) :=
  (keep_h1_v3 (W2 m ρ c)).trans (w2_v3 m ρ c)
theorem w3_arg2 : W3 m ρ c (Proc.devRef .tc main_arg2) = (m ((c : Thread nD τ).loc main_arg2)) :=
  (keep_h1_arg2 (W2 m ρ c)).trans (w2_arg2 m ρ c)
theorem w3_arg4 : W3 m ρ c (Proc.devRef .tc main_arg4) = (m ((c : Thread nD τ).loc main_arg4)) :=
  (keep_h1_arg4 (W2 m ρ c)).trans (w2_arg4 m ρ c)
theorem w3_arg5 : W3 m ρ c (Proc.devRef .tc main_arg5) = (m ((c : Thread nD τ).loc main_arg5)) :=
  (keep_h1_arg5 (W2 m ρ c)).trans (w2_arg5 m ρ c)
theorem w3_arg6 : W3 m ρ c (Proc.devRef .tc main_arg6) = (m ((c : Thread nD τ).loc main_arg6)) :=
  (keep_h1_arg6 (W2 m ρ c)).trans (w2_arg6 m ρ c)

/-! ### Boundary 4: after the host stretch -/

theorem w4_v13 : W4 m ρ c (Proc.devRef .tc main_v13) = (dinvOf (edgeDst (m ((c : Thread nD τ).loc main_arg1))) (m ((c : Thread nD τ).loc main_arg2))) :=
  (h1w_v13 (W3 m ρ c)).trans (by rw [w3_v11 m ρ c, w3_v12 m ρ c, w3_cst_2 m ρ c]; rfl)
theorem w4_v4 : W4 m ρ c (Proc.devRef .tc main_v4) = (linV (m ((c : Thread nD τ).loc main_arg0)) (m ((c : Thread nD τ).loc main_arg3))) :=
  (keep_h1w_v4 (W3 m ρ c)).trans (w3_v4 m ρ c)
theorem w4_v1 : W4 m ρ c (Proc.devRef .tc main_v1) = (edgeSrc (m ((c : Thread nD τ).loc main_arg1))) :=
  (keep_h1w_v1 (W3 m ρ c)).trans (w3_v1 m ρ c)
theorem w4_v3 : W4 m ρ c (Proc.devRef .tc main_v3) = (edgeDst (m ((c : Thread nD τ).loc main_arg1))) :=
  (keep_h1w_v3 (W3 m ρ c)).trans (w3_v3 m ρ c)
theorem w4_arg2 : W4 m ρ c (Proc.devRef .tc main_arg2) = (m ((c : Thread nD τ).loc main_arg2)) :=
  (keep_h1w_arg2 (W3 m ρ c)).trans (w3_arg2 m ρ c)
theorem w4_arg4 : W4 m ρ c (Proc.devRef .tc main_arg4) = (m ((c : Thread nD τ).loc main_arg4)) :=
  (keep_h1w_arg4 (W3 m ρ c)).trans (w3_arg4 m ρ c)
theorem w4_arg5 : W4 m ρ c (Proc.devRef .tc main_arg5) = (m ((c : Thread nD τ).loc main_arg5)) :=
  (keep_h1w_arg5 (W3 m ρ c)).trans (w3_arg5 m ρ c)
theorem w4_arg6 : W4 m ρ c (Proc.devRef .tc main_arg6) = (m ((c : Thread nD τ).loc main_arg6)) :=
  (keep_h1w_arg6 (W3 m ρ c)).trans (w3_arg6 m ρ c)

/-! ### Boundary 5: after the host stretch -/

theorem w5_v14 : W5 m ρ c (Proc.devRef .tc main_v14) = (shapeCast S50000x1 (dinvOf (edgeDst (m ((c : Thread nD τ).loc main_arg1))) (m ((c : Thread nD τ).loc main_arg2))) shapeCasts_S50000_S50000x1) :=
  (h1g_v14 (W4 m ρ c)).trans (by rw [w4_v13 m ρ c])
theorem w5_v22 : W5 m ρ c (Proc.devRef .tc main_v22) = (colOf (dinvOf (edgeDst (m ((c : Thread nD τ).loc main_arg1))) (m ((c : Thread nD τ).loc main_arg2))) (edgeSrc (m ((c : Thread nD τ).loc main_arg1)))) :=
  (h1g_v22 (W4 m ρ c)).trans (by rw [w4_v13 m ρ c, w4_v1 m ρ c])
theorem w5_v30 : W5 m ρ c (Proc.devRef .tc main_v30) = (colOf (dinvOf (edgeDst (m ((c : Thread nD τ).loc main_arg1))) (m ((c : Thread nD τ).loc main_arg2))) (edgeDst (m ((c : Thread nD τ).loc main_arg1)))) :=
  (h1g_v30 (W4 m ρ c)).trans (by rw [w4_v13 m ρ c, w4_v3 m ρ c])
theorem w5_v31 : W5 m ρ c (Proc.devRef .tc main_v31) = (shapeCast S600000x1 (m ((c : Thread nD τ).loc main_arg2)) shapeCasts_S600000_S600000x1) :=
  (h1g_v31 (W4 m ρ c)).trans (by rw [w4_arg2 m ρ c])
theorem w5_v38 : W5 m ρ c (Proc.devRef .tc main_v38) = (rowsOf (linV (m ((c : Thread nD τ).loc main_arg0)) (m ((c : Thread nD τ).loc main_arg3))) (edgeSrc (m ((c : Thread nD τ).loc main_arg1)))) :=
  (h1g_v38 (W4 m ρ c)).trans (by rw [w4_v4 m ρ c, w4_v1 m ρ c])
theorem w5_v4 : W5 m ρ c (Proc.devRef .tc main_v4) = (linV (m ((c : Thread nD τ).loc main_arg0)) (m ((c : Thread nD τ).loc main_arg3))) :=
  (keep_h1g_v4 (W4 m ρ c)).trans (w4_v4 m ρ c)
theorem w5_v1 : W5 m ρ c (Proc.devRef .tc main_v1) = (edgeSrc (m ((c : Thread nD τ).loc main_arg1))) :=
  (keep_h1g_v1 (W4 m ρ c)).trans (w4_v1 m ρ c)
theorem w5_v3 : W5 m ρ c (Proc.devRef .tc main_v3) = (edgeDst (m ((c : Thread nD τ).loc main_arg1))) :=
  (keep_h1g_v3 (W4 m ρ c)).trans (w4_v3 m ρ c)
theorem w5_arg2 : W5 m ρ c (Proc.devRef .tc main_arg2) = (m ((c : Thread nD τ).loc main_arg2)) :=
  (keep_h1g_arg2 (W4 m ρ c)).trans (w4_arg2 m ρ c)
theorem w5_arg4 : W5 m ρ c (Proc.devRef .tc main_arg4) = (m ((c : Thread nD τ).loc main_arg4)) :=
  (keep_h1g_arg4 (W4 m ρ c)).trans (w4_arg4 m ρ c)
theorem w5_arg5 : W5 m ρ c (Proc.devRef .tc main_arg5) = (m ((c : Thread nD τ).loc main_arg5)) :=
  (keep_h1g_arg5 (W4 m ρ c)).trans (w4_arg5 m ρ c)
theorem w5_arg6 : W5 m ρ c (Proc.devRef .tc main_arg6) = (m ((c : Thread nD τ).loc main_arg6)) :=
  (keep_h1g_arg6 (W4 m ρ c)).trans (w4_arg6 m ρ c)

/-! ### Boundary 6: after region 1 -/

theorem w6_v39 : W6 m ρ c (Proc.devRef .tc main_v39) = (msgOf (linV (m ((c : Thread nD τ).loc main_arg0)) (m ((c : Thread nD τ).loc main_arg3))) (edgeSrc (m ((c : Thread nD τ).loc main_arg1))) (edgeDst (m ((c : Thread nD τ).loc main_arg1))) (m ((c : Thread nD τ).loc main_arg2))) := by
  refine (W6_arr m ρ c 4).trans ((msg1_value (V5 m ρ) c).trans ?_)
  show msgV (W5 m ρ c (Proc.devRef .tc main_v38)) (W5 m ρ c (Proc.devRef .tc main_v22)) (W5 m ρ c (Proc.devRef .tc main_v31)) (W5 m ρ c (Proc.devRef .tc main_v30)) = _
  rw [w5_v38 m ρ c, w5_v22 m ρ c, w5_v31 m ρ c, w5_v30 m ρ c] <;> rfl
theorem w6_v4 : W6 m ρ c (Proc.devRef .tc main_v4) = (linV (m ((c : Thread nD τ).loc main_arg0)) (m ((c : Thread nD τ).loc main_arg3))) :=
  (W6_of_ne m ρ c main_v4 (by decide)).trans (w5_v4 m ρ c)
theorem w6_v14 : W6 m ρ c (Proc.devRef .tc main_v14) = (shapeCast S50000x1 (dinvOf (edgeDst (m ((c : Thread nD τ).loc main_arg1))) (m ((c : Thread nD τ).loc main_arg2))) shapeCasts_S50000_S50000x1) :=
  (W6_of_ne m ρ c main_v14 (by decide)).trans (w5_v14 m ρ c)
theorem w6_v1 : W6 m ρ c (Proc.devRef .tc main_v1) = (edgeSrc (m ((c : Thread nD τ).loc main_arg1))) :=
  (W6_of_ne m ρ c main_v1 (by decide)).trans (w5_v1 m ρ c)
theorem w6_v3 : W6 m ρ c (Proc.devRef .tc main_v3) = (edgeDst (m ((c : Thread nD τ).loc main_arg1))) :=
  (W6_of_ne m ρ c main_v3 (by decide)).trans (w5_v3 m ρ c)
theorem w6_arg2 : W6 m ρ c (Proc.devRef .tc main_arg2) = (m ((c : Thread nD τ).loc main_arg2)) :=
  (W6_of_ne m ρ c main_arg2 (by decide)).trans (w5_arg2 m ρ c)
theorem w6_arg4 : W6 m ρ c (Proc.devRef .tc main_arg4) = (m ((c : Thread nD τ).loc main_arg4)) :=
  (W6_of_ne m ρ c main_arg4 (by decide)).trans (w5_arg4 m ρ c)
theorem w6_arg5 : W6 m ρ c (Proc.devRef .tc main_arg5) = (m ((c : Thread nD τ).loc main_arg5)) :=
  (W6_of_ne m ρ c main_arg5 (by decide)).trans (w5_arg5 m ρ c)
theorem w6_arg6 : W6 m ρ c (Proc.devRef .tc main_arg6) = (m ((c : Thread nD τ).loc main_arg6)) :=
  (W6_of_ne m ρ c main_arg6 (by decide)).trans (w5_arg6 m ρ c)

/-! ### Boundary 7: after the host stretch -/

theorem w7_v42 : W7 m ρ c (Proc.devRef .tc main_v42) = (aggOf (edgeDst (m ((c : Thread nD τ).loc main_arg1))) (msgOf (linV (m ((c : Thread nD τ).loc main_arg0)) (m ((c : Thread nD τ).loc main_arg3))) (edgeSrc (m ((c : Thread nD τ).loc main_arg1))) (edgeDst (m ((c : Thread nD τ).loc main_arg1))) (m ((c : Thread nD τ).loc main_arg2)))) :=
  (h2_v42 (W6 m ρ c)).trans (by rw [w6_v3 m ρ c, w6_v39 m ρ c])
theorem w7_v43 : W7 m ρ c (Proc.devRef .tc main_v43) = (shapeCast S1x128 (m ((c : Thread nD τ).loc main_arg4)) shapeCasts_S128_S1x128) :=
  (h2_v43 (W6 m ρ c)).trans (by rw [w6_arg4 m ρ c])
theorem w7_v4 : W7 m ρ c (Proc.devRef .tc main_v4) = (linV (m ((c : Thread nD τ).loc main_arg0)) (m ((c : Thread nD τ).loc main_arg3))) :=
  (keep_h2_v4 (W6 m ρ c)).trans (w6_v4 m ρ c)
theorem w7_v14 : W7 m ρ c (Proc.devRef .tc main_v14) = (shapeCast S50000x1 (dinvOf (edgeDst (m ((c : Thread nD τ).loc main_arg1))) (m ((c : Thread nD τ).loc main_arg2))) shapeCasts_S50000_S50000x1) :=
  (keep_h2_v14 (W6 m ρ c)).trans (w6_v14 m ρ c)
theorem w7_v1 : W7 m ρ c (Proc.devRef .tc main_v1) = (edgeSrc (m ((c : Thread nD τ).loc main_arg1))) :=
  (keep_h2_v1 (W6 m ρ c)).trans (w6_v1 m ρ c)
theorem w7_v3 : W7 m ρ c (Proc.devRef .tc main_v3) = (edgeDst (m ((c : Thread nD τ).loc main_arg1))) :=
  (keep_h2_v3 (W6 m ρ c)).trans (w6_v3 m ρ c)
theorem w7_arg2 : W7 m ρ c (Proc.devRef .tc main_arg2) = (m ((c : Thread nD τ).loc main_arg2)) :=
  (keep_h2_arg2 (W6 m ρ c)).trans (w6_arg2 m ρ c)
theorem w7_arg5 : W7 m ρ c (Proc.devRef .tc main_arg5) = (m ((c : Thread nD τ).loc main_arg5)) :=
  (keep_h2_arg5 (W6 m ρ c)).trans (w6_arg5 m ρ c)
theorem w7_arg6 : W7 m ρ c (Proc.devRef .tc main_arg6) = (m ((c : Thread nD τ).loc main_arg6)) :=
  (keep_h2_arg6 (W6 m ρ c)).trans (w6_arg6 m ρ c)

/-! ### Boundary 8: after region 2 -/

theorem w8_v44 : W8 m ρ c (Proc.devRef .tc main_v44) = (layerRelu (m ((c : Thread nD τ).loc main_arg0)) (m ((c : Thread nD τ).loc main_arg3)) (m ((c : Thread nD τ).loc main_arg4)) (edgeSrc (m ((c : Thread nD τ).loc main_arg1))) (edgeDst (m ((c : Thread nD τ).loc main_arg1))) (m ((c : Thread nD τ).loc main_arg2))) := by
  refine (W8_arr m ρ c 4).trans ((fin2_value (V7 m ρ) c).trans ?_)
  show finReluV (W7 m ρ c (Proc.devRef .tc main_v42)) (W7 m ρ c (Proc.devRef .tc main_v4)) (W7 m ρ c (Proc.devRef .tc main_v14)) (W7 m ρ c (Proc.devRef .tc main_v43)) = _
  rw [w7_v42 m ρ c, w7_v4 m ρ c, w7_v14 m ρ c, w7_v43 m ρ c] <;> rfl
theorem w8_v1 : W8 m ρ c (Proc.devRef .tc main_v1) = (edgeSrc (m ((c : Thread nD τ).loc main_arg1))) :=
  (W8_of_ne m ρ c main_v1 (by decide)).trans (w7_v1 m ρ c)
theorem w8_v3 : W8 m ρ c (Proc.devRef .tc main_v3) = (edgeDst (m ((c : Thread nD τ).loc main_arg1))) :=
  (W8_of_ne m ρ c main_v3 (by decide)).trans (w7_v3 m ρ c)
theorem w8_arg2 : W8 m ρ c (Proc.devRef .tc main_arg2) = (m ((c : Thread nD τ).loc main_arg2)) :=
  (W8_of_ne m ρ c main_arg2 (by decide)).trans (w7_arg2 m ρ c)
theorem w8_arg5 : W8 m ρ c (Proc.devRef .tc main_arg5) = (m ((c : Thread nD τ).loc main_arg5)) :=
  (W8_of_ne m ρ c main_arg5 (by decide)).trans (w7_arg5 m ρ c)
theorem w8_arg6 : W8 m ρ c (Proc.devRef .tc main_arg6) = (m ((c : Thread nD τ).loc main_arg6)) :=
  (W8_of_ne m ρ c main_arg6 (by decide)).trans (w7_arg6 m ρ c)

/-! ### Boundary 9: after region 3 -/

theorem w9_v45 : W9 m ρ c (Proc.devRef .tc main_v45) = (linV (layerRelu (m ((c : Thread nD τ).loc main_arg0)) (m ((c : Thread nD τ).loc main_arg3)) (m ((c : Thread nD τ).loc main_arg4)) (edgeSrc (m ((c : Thread nD τ).loc main_arg1))) (edgeDst (m ((c : Thread nD τ).loc main_arg1))) (m ((c : Thread nD τ).loc main_arg2))) (m ((c : Thread nD τ).loc main_arg5))) := by
  refine (W9_arr m ρ c 2).trans ((lin3_value (V8 m ρ) c).trans ?_)
  show linV (W8 m ρ c (Proc.devRef .tc main_v44)) (W8 m ρ c (Proc.devRef .tc main_arg5)) = _
  rw [w8_v44 m ρ c, w8_arg5 m ρ c] <;> rfl
theorem w9_v1 : W9 m ρ c (Proc.devRef .tc main_v1) = (edgeSrc (m ((c : Thread nD τ).loc main_arg1))) :=
  (W9_of_ne m ρ c main_v1 (by decide)).trans (w8_v1 m ρ c)
theorem w9_v3 : W9 m ρ c (Proc.devRef .tc main_v3) = (edgeDst (m ((c : Thread nD τ).loc main_arg1))) :=
  (W9_of_ne m ρ c main_v3 (by decide)).trans (w8_v3 m ρ c)
theorem w9_arg2 : W9 m ρ c (Proc.devRef .tc main_arg2) = (m ((c : Thread nD τ).loc main_arg2)) :=
  (W9_of_ne m ρ c main_arg2 (by decide)).trans (w8_arg2 m ρ c)
theorem w9_arg6 : W9 m ρ c (Proc.devRef .tc main_arg6) = (m ((c : Thread nD τ).loc main_arg6)) :=
  (W9_of_ne m ρ c main_arg6 (by decide)).trans (w8_arg6 m ρ c)

/-! ### Boundary 10: after the host stretch -/

theorem w10_v52 : W10 m ρ c (Proc.devRef .tc main_v52) = (degPos (edgeDst (m ((c : Thread nD τ).loc main_arg1))) (m ((c : Thread nD τ).loc main_arg2))) :=
  (h4_v52 (W9 m ρ c)).trans (by rw [w9_v3 m ρ c, w9_arg2 m ρ c])
theorem w10_v53 : W10 m ρ c (Proc.devRef .tc main_v53) = (Host.rsqrt (F := Ideal) (s := S50000) (φ := .f32) (degOf (edgeDst (m ((c : Thread nD τ).loc main_arg1))) (m ((c : Thread nD τ).loc main_arg2)))) :=
  (h4_v53 (W9 m ρ c)).trans (by rw [w9_v3 m ρ c, w9_arg2 m ρ c])
theorem w10_cst_12 : W10 m ρ c (Proc.devRef .tc main_cst_12) = (constant (F := Ideal) S_ .f32 0x00000000#32) :=
  (h4_cst (W9 m ρ c))
theorem w10_v45 : W10 m ρ c (Proc.devRef .tc main_v45) = (linV (layerRelu (m ((c : Thread nD τ).loc main_arg0)) (m ((c : Thread nD τ).loc main_arg3)) (m ((c : Thread nD τ).loc main_arg4)) (edgeSrc (m ((c : Thread nD τ).loc main_arg1))) (edgeDst (m ((c : Thread nD τ).loc main_arg1))) (m ((c : Thread nD τ).loc main_arg2))) (m ((c : Thread nD τ).loc main_arg5))) :=
  (keep_h4_v45 (W9 m ρ c)).trans (w9_v45 m ρ c)
theorem w10_v1 : W10 m ρ c (Proc.devRef .tc main_v1) = (edgeSrc (m ((c : Thread nD τ).loc main_arg1))) :=
  (keep_h4_v1 (W9 m ρ c)).trans (w9_v1 m ρ c)
theorem w10_v3 : W10 m ρ c (Proc.devRef .tc main_v3) = (edgeDst (m ((c : Thread nD τ).loc main_arg1))) :=
  (keep_h4_v3 (W9 m ρ c)).trans (w9_v3 m ρ c)
theorem w10_arg2 : W10 m ρ c (Proc.devRef .tc main_arg2) = (m ((c : Thread nD τ).loc main_arg2)) :=
  (keep_h4_arg2 (W9 m ρ c)).trans (w9_arg2 m ρ c)
theorem w10_arg6 : W10 m ρ c (Proc.devRef .tc main_arg6) = (m ((c : Thread nD τ).loc main_arg6)) :=
  (keep_h4_arg6 (W9 m ρ c)).trans (w9_arg6 m ρ c)

/-! ### Boundary 11: after the host stretch -/

theorem w11_v54 : W11 m ρ c (Proc.devRef .tc main_v54) = (dinvOf (edgeDst (m ((c : Thread nD τ).loc main_arg1))) (m ((c : Thread nD τ).loc main_arg2))) :=
  (h4w_v54 (W10 m ρ c)).trans (by rw [w10_v52 m ρ c, w10_v53 m ρ c, w10_cst_12 m ρ c]; rfl)
theorem w11_v45 : W11 m ρ c (Proc.devRef .tc main_v45) = (linV (layerRelu (m ((c : Thread nD τ).loc main_arg0)) (m ((c : Thread nD τ).loc main_arg3)) (m ((c : Thread nD τ).loc main_arg4)) (edgeSrc (m ((c : Thread nD τ).loc main_arg1))) (edgeDst (m ((c : Thread nD τ).loc main_arg1))) (m ((c : Thread nD τ).loc main_arg2))) (m ((c : Thread nD τ).loc main_arg5))) :=
  (keep_h4w_v45 (W10 m ρ c)).trans (w10_v45 m ρ c)
theorem w11_v1 : W11 m ρ c (Proc.devRef .tc main_v1) = (edgeSrc (m ((c : Thread nD τ).loc main_arg1))) :=
  (keep_h4w_v1 (W10 m ρ c)).trans (w10_v1 m ρ c)
theorem w11_v3 : W11 m ρ c (Proc.devRef .tc main_v3) = (edgeDst (m ((c : Thread nD τ).loc main_arg1))) :=
  (keep_h4w_v3 (W10 m ρ c)).trans (w10_v3 m ρ c)
theorem w11_arg2 : W11 m ρ c (Proc.devRef .tc main_arg2) = (m ((c : Thread nD τ).loc main_arg2)) :=
  (keep_h4w_arg2 (W10 m ρ c)).trans (w10_arg2 m ρ c)
theorem w11_arg6 : W11 m ρ c (Proc.devRef .tc main_arg6) = (m ((c : Thread nD τ).loc main_arg6)) :=
  (keep_h4w_arg6 (W10 m ρ c)).trans (w10_arg6 m ρ c)

/-! ### Boundary 12: after the host stretch -/

theorem w12_v55 : W12 m ρ c (Proc.devRef .tc main_v55) = (shapeCast S50000x1 (dinvOf (edgeDst (m ((c : Thread nD τ).loc main_arg1))) (m ((c : Thread nD τ).loc main_arg2))) shapeCasts_S50000_S50000x1) :=
  (h4g_v55 (W11 m ρ c)).trans (by rw [w11_v54 m ρ c])
theorem w12_v63 : W12 m ρ c (Proc.devRef .tc main_v63) = (colOf (dinvOf (edgeDst (m ((c : Thread nD τ).loc main_arg1))) (m ((c : Thread nD τ).loc main_arg2))) (edgeSrc (m ((c : Thread nD τ).loc main_arg1)))) :=
  (h4g_v63 (W11 m ρ c)).trans (by rw [w11_v54 m ρ c, w11_v1 m ρ c])
theorem w12_v71 : W12 m ρ c (Proc.devRef .tc main_v71) = (colOf (dinvOf (edgeDst (m ((c : Thread nD τ).loc main_arg1))) (m ((c : Thread nD τ).loc main_arg2))) (edgeDst (m ((c : Thread nD τ).loc main_arg1)))) :=
  (h4g_v71 (W11 m ρ c)).trans (by rw [w11_v54 m ρ c, w11_v3 m ρ c])
theorem w12_v72 : W12 m ρ c (Proc.devRef .tc main_v72) = (shapeCast S600000x1 (m ((c : Thread nD τ).loc main_arg2)) shapeCasts_S600000_S600000x1) :=
  (h4g_v72 (W11 m ρ c)).trans (by rw [w11_arg2 m ρ c])
theorem w12_v79 : W12 m ρ c (Proc.devRef .tc main_v79) = (rowsOf (linV (layerRelu (m ((c : Thread nD τ).loc main_arg0)) (m ((c : Thread nD τ).loc main_arg3)) (m ((c : Thread nD τ).loc main_arg4)) (edgeSrc (m ((c : Thread nD τ).loc main_arg1))) (edgeDst (m ((c : Thread nD τ).loc main_arg1))) (m ((c : Thread nD τ).loc main_arg2))) (m ((c : Thread nD τ).loc main_arg5))) (edgeSrc (m ((c : Thread nD τ).loc main_arg1)))) :=
  (h4g_v79 (W11 m ρ c)).trans (by rw [w11_v45 m ρ c, w11_v1 m ρ c])
theorem w12_v45 : W12 m ρ c (Proc.devRef .tc main_v45) = (linV (layerRelu (m ((c : Thread nD τ).loc main_arg0)) (m ((c : Thread nD τ).loc main_arg3)) (m ((c : Thread nD τ).loc main_arg4)) (edgeSrc (m ((c : Thread nD τ).loc main_arg1))) (edgeDst (m ((c : Thread nD τ).loc main_arg1))) (m ((c : Thread nD τ).loc main_arg2))) (m ((c : Thread nD τ).loc main_arg5))) :=
  (keep_h4g_v45 (W11 m ρ c)).trans (w11_v45 m ρ c)
theorem w12_v3 : W12 m ρ c (Proc.devRef .tc main_v3) = (edgeDst (m ((c : Thread nD τ).loc main_arg1))) :=
  (keep_h4g_v3 (W11 m ρ c)).trans (w11_v3 m ρ c)
theorem w12_arg6 : W12 m ρ c (Proc.devRef .tc main_arg6) = (m ((c : Thread nD τ).loc main_arg6)) :=
  (keep_h4g_arg6 (W11 m ρ c)).trans (w11_arg6 m ρ c)

/-! ### Boundary 13: after region 4 -/

theorem w13_v80 : W13 m ρ c (Proc.devRef .tc main_v80) = (msgOf (linV (layerRelu (m ((c : Thread nD τ).loc main_arg0)) (m ((c : Thread nD τ).loc main_arg3)) (m ((c : Thread nD τ).loc main_arg4)) (edgeSrc (m ((c : Thread nD τ).loc main_arg1))) (edgeDst (m ((c : Thread nD τ).loc main_arg1))) (m ((c : Thread nD τ).loc main_arg2))) (m ((c : Thread nD τ).loc main_arg5))) (edgeSrc (m ((c : Thread nD τ).loc main_arg1))) (edgeDst (m ((c : Thread nD τ).loc main_arg1))) (m ((c : Thread nD τ).loc main_arg2))) := by
  refine (W13_arr m ρ c 4).trans ((msg4_value (V12 m ρ) c).trans ?_)
  show msgV (W12 m ρ c (Proc.devRef .tc main_v79)) (W12 m ρ c (Proc.devRef .tc main_v63)) (W12 m ρ c (Proc.devRef .tc main_v72)) (W12 m ρ c (Proc.devRef .tc main_v71)) = _
  rw [w12_v79 m ρ c, w12_v63 m ρ c, w12_v72 m ρ c, w12_v71 m ρ c] <;> rfl
theorem w13_v45 : W13 m ρ c (Proc.devRef .tc main_v45) = (linV (layerRelu (m ((c : Thread nD τ).loc main_arg0)) (m ((c : Thread nD τ).loc main_arg3)) (m ((c : Thread nD τ).loc main_arg4)) (edgeSrc (m ((c : Thread nD τ).loc main_arg1))) (edgeDst (m ((c : Thread nD τ).loc main_arg1))) (m ((c : Thread nD τ).loc main_arg2))) (m ((c : Thread nD τ).loc main_arg5))) :=
  (W13_of_ne m ρ c main_v45 (by decide)).trans (w12_v45 m ρ c)
theorem w13_v55 : W13 m ρ c (Proc.devRef .tc main_v55) = (shapeCast S50000x1 (dinvOf (edgeDst (m ((c : Thread nD τ).loc main_arg1))) (m ((c : Thread nD τ).loc main_arg2))) shapeCasts_S50000_S50000x1) :=
  (W13_of_ne m ρ c main_v55 (by decide)).trans (w12_v55 m ρ c)
theorem w13_v3 : W13 m ρ c (Proc.devRef .tc main_v3) = (edgeDst (m ((c : Thread nD τ).loc main_arg1))) :=
  (W13_of_ne m ρ c main_v3 (by decide)).trans (w12_v3 m ρ c)
theorem w13_arg6 : W13 m ρ c (Proc.devRef .tc main_arg6) = (m ((c : Thread nD τ).loc main_arg6)) :=
  (W13_of_ne m ρ c main_arg6 (by decide)).trans (w12_arg6 m ρ c)

/-! ### Boundary 14: after the host stretch -/

theorem w14_v83 : W14 m ρ c (Proc.devRef .tc main_v83) = (aggOf (edgeDst (m ((c : Thread nD τ).loc main_arg1))) (msgOf (linV (layerRelu (m ((c : Thread nD τ).loc main_arg0)) (m ((c : Thread nD τ).loc main_arg3)) (m ((c : Thread nD τ).loc main_arg4)) (edgeSrc (m ((c : Thread nD τ).loc main_arg1))) (edgeDst (m ((c : Thread nD τ).loc main_arg1))) (m ((c : Thread nD τ).loc main_arg2))) (m ((c : Thread nD τ).loc main_arg5))) (edgeSrc (m ((c : Thread nD τ).loc main_arg1))) (edgeDst (m ((c : Thread nD τ).loc main_arg1))) (m ((c : Thread nD τ).loc main_arg2)))) :=
  (h5_v83 (W13 m ρ c)).trans (by rw [w13_v3 m ρ c, w13_v80 m ρ c])
theorem w14_v84 : W14 m ρ c (Proc.devRef .tc main_v84) = (shapeCast S1x128 (m ((c : Thread nD τ).loc main_arg6)) shapeCasts_S128_S1x128) :=
  (h5_v84 (W13 m ρ c)).trans (by rw [w13_arg6 m ρ c])
theorem w14_v45 : W14 m ρ c (Proc.devRef .tc main_v45) = (linV (layerRelu (m ((c : Thread nD τ).loc main_arg0)) (m ((c : Thread nD τ).loc main_arg3)) (m ((c : Thread nD τ).loc main_arg4)) (edgeSrc (m ((c : Thread nD τ).loc main_arg1))) (edgeDst (m ((c : Thread nD τ).loc main_arg1))) (m ((c : Thread nD τ).loc main_arg2))) (m ((c : Thread nD τ).loc main_arg5))) :=
  (keep_h5_v45 (W13 m ρ c)).trans (w13_v45 m ρ c)
theorem w14_v55 : W14 m ρ c (Proc.devRef .tc main_v55) = (shapeCast S50000x1 (dinvOf (edgeDst (m ((c : Thread nD τ).loc main_arg1))) (m ((c : Thread nD τ).loc main_arg2))) shapeCasts_S50000_S50000x1) :=
  (keep_h5_v55 (W13 m ρ c)).trans (w13_v55 m ρ c)

/-! ### Boundary 15: after region 5 -/

theorem w15_v85 : W15 m ρ c (Proc.devRef .tc main_v85) = (layerPlain (layerRelu (m ((c : Thread nD τ).loc main_arg0)) (m ((c : Thread nD τ).loc main_arg3)) (m ((c : Thread nD τ).loc main_arg4)) (edgeSrc (m ((c : Thread nD τ).loc main_arg1))) (edgeDst (m ((c : Thread nD τ).loc main_arg1))) (m ((c : Thread nD τ).loc main_arg2))) (m ((c : Thread nD τ).loc main_arg5)) (m ((c : Thread nD τ).loc main_arg6)) (edgeSrc (m ((c : Thread nD τ).loc main_arg1))) (edgeDst (m ((c : Thread nD τ).loc main_arg1))) (m ((c : Thread nD τ).loc main_arg2))) := by
  refine (W15_arr m ρ c 4).trans ((fin5_value (V14 m ρ) c).trans ?_)
  show finV (W14 m ρ c (Proc.devRef .tc main_v83)) (W14 m ρ c (Proc.devRef .tc main_v45)) (W14 m ρ c (Proc.devRef .tc main_v55)) (W14 m ρ c (Proc.devRef .tc main_v84)) = _
  rw [w14_v83 m ρ c, w14_v45 m ρ c, w14_v55 m ρ c, w14_v84 m ρ c] <;> rfl

/-- The result array after the last segment: the second layer (no clamp) of the first layer (clamped). -/
theorem result_value : W15 m ρ c (Proc.devRef .tc main_v85)
    = layerPlain (layerRelu (m ((c : Thread nD τ).loc main_arg0)) (m ((c : Thread nD τ).loc main_arg3)) (m ((c : Thread nD τ).loc main_arg4)) (edgeSrc (m ((c : Thread nD τ).loc main_arg1))) (edgeDst (m ((c : Thread nD τ).loc main_arg1))) (m ((c : Thread nD τ).loc main_arg2))) (m ((c : Thread nD τ).loc main_arg5)) (m ((c : Thread nD τ).loc main_arg6)) (edgeSrc (m ((c : Thread nD τ).loc main_arg1))) (edgeDst (m ((c : Thread nD τ).loc main_arg1))) (m ((c : Thread nD τ).loc main_arg2)) :=
  w15_v85 m ρ c

end Cert.KernelIdeal.Layer

end
-- ==== Proof.LibBcastInDim.lean ====
/-
  The host's broadcast_in_dim in its unit-axis forms, read at an index, at any extents and element type:
  a vector [a] set out as a column [a, 1] (dims [0]) or as a row [1, b] (dims [1]); a column [a, 1] spread over the
  lanes [a, b] and a row [1, b] spread over the rows [a, b] (dims [0, 1]); a scalar spread over any shape (dims []).
  These are what jnp's v[:, None], v[None, :] and the implicit broadcasts of x * v[:, None], x + b[None, :] print as.
  Each entry of the result is one entry of the operand: the operand's index keeps the coordinates of the axes it has
  and is 0 on an axis of extent 1.
-/
import Idealize.ShloMosaic.Lib.Pipeline.Value
import Idealize.ShloMosaic.Lib.ValueIdx

noncomputable section

namespace Cert.Lib.BcastInDim

open Idealize.ShloMosaic Idealize.ShloMosaic.ValueIdx

variable {α : Type}

/-- A vector [a] set out as a column [a, 1]: entry (p, ·) is v[p]. -/
theorem bcast_vec_col {a : ℕ} (v : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h v (ix2 p u) = v (ix1 p) :=
  broadcastInDim_apply ![0] h v (ix2 p u) (ix1 p) fun ax => by
    match ax with
    | ⟨0, _⟩ =>
      show p.val = if a = 1 then 0 else p.val
      split_ifs with h1
      · have := p.isLt; omega
      · rfl

/-- A column [a, 1] spread over the lanes [a, b]: entry (p, q) is the column's entry of row p. -/
theorem bcast_col_mat {a b : ℕ} (v : (⟨2, ![a, 1]⟩ : Shape).Idx → α) (h : (⟨2, ![a, 1]⟩ : Shape).BroadcastsInDim ⟨2, ![a, b]⟩ ![0, 1])
    (p : Fin a) (q : Fin b) : broadcastInDim ⟨2, ![a, b]⟩ ![0, 1] h v (ix2 p q) = v (ix2 p (0 : Fin 1)) :=
  broadcastInDim_apply ![0, 1] h v (ix2 p q) (ix2 p (0 : Fin 1)) fun ax => by
    match ax with
    | ⟨0, _⟩ =>
      show p.val = if a = 1 then 0 else p.val
      split_ifs with h1
      · have := p.isLt; omega
      · rfl
    | ⟨1, _⟩ =>
      show (0 : ℕ) = if 1 = 1 then 0 else q.val
      rfl

/-- A vector [b] set out as a row [1, b]: entry (·, q) is v[q]. -/
theorem bcast_vec_row {b : ℕ} (v : (⟨1, ![b]⟩ : Shape).Idx → α) (h : (⟨1, ![b]⟩ : Shape).BroadcastsInDim ⟨2, ![1, b]⟩ ![1])
    (u : Fin 1) (q : Fin b) : broadcastInDim ⟨2, ![1, b]⟩ ![1] h v (ix2 u q) = v (ix1 q) :=
  broadcastInDim_apply ![1] h v (ix2 u q) (ix1 q) fun ax => by
    match ax with
    | ⟨0, _⟩ =>
      show q.val = if b = 1 then 0 else q.val
      split_ifs with h1
      · have := q.isLt; omega
      · rfl

/-- A row [1, b] spread over the rows [a, b]: entry (p, q) is the row's entry of lane q. -/
theorem bcast_row_mat {a b : ℕ} (v : (⟨2, ![1, b]⟩ : Shape).Idx → α) (h : (⟨2, ![1, b]⟩ : Shape).BroadcastsInDim ⟨2, ![a, b]⟩ ![0, 1])
    (p : Fin a) (q : Fin b) : broadcastInDim ⟨2, ![a, b]⟩ ![0, 1] h v (ix2 p q) = v (ix2 (0 : Fin 1) q) :=
  broadcastInDim_apply ![0, 1] h v (ix2 p q) (ix2 (0 : Fin 1) q) fun ax => by
    match ax with
    | ⟨0, _⟩ =>
      show (0 : ℕ) = if 1 = 1 then 0 else p.val
      rfl
    | ⟨1, _⟩ =>
      show q.val = if b = 1 then 0 else q.val
      split_ifs with h1
      · have := q.isLt; omega
      · rfl

/-- A scalar spread over any shape reads the scalar. -/
theorem bcast_scalar {s : Shape} (v : (⟨0, ![]⟩ : Shape).Idx → α) (h : (⟨0, ![]⟩ : Shape).BroadcastsInDim s ![]) (j : s.Idx)
    (k : (⟨0, ![]⟩ : Shape).Idx) : broadcastInDim s ![] h v j = v k :=
  broadcastInDim_apply ![] h v j k fun ax => ax.elim0

end Cert.Lib.BcastInDim

end
-- ==== Proof.RefLayer.lean ====
/-
  The reference's host spelling of the three kernel regions, read index by index on the extended reals:
  * its dot_general is the dense projection Σ_k x[p, k] · W[k, q];
  * h[src] · broadcast(((d[src] · w) · d[dst])[:, None]) is the edge message with the three factors as columns;
  * (agg + h · broadcast((d · d)[:, None])) + broadcast(b[None, :]), clamped at zero or not, is the node update.
  A broadcast_in_dim that adds a unit axis and a reshape that adds the same axis read the same entry, which is all
  that separates the two spellings: no law of the extended reals is used.
-/
import proofs.«140400_j29326036697585_2_alg».proof.Proof.Gen.ReferenceIdeal
import proofs.«140400_j29326036697585_2_alg».proof.Proof.Spec
import proofs.«140400_j29326036697585_2_alg».proof.Proof.LibMatmul
import proofs.«140400_j29326036697585_2_alg».proof.Proof.LibUnitAxis
import proofs.«140400_j29326036697585_2_alg».proof.Proof.LibBcastInDim
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Layer

open Idealize.ShloMosaic Idealize.ShloMosaic.ValueIdx Cert.ReferenceIdeal Cert.ReferenceIdeal.Gen
open Cert.KernelIdeal.Layer (linV msgV finV finReluV)
open Cert.Lib.BcastInDim

/-! ## The three regions in the reference's spelling -/

theorem dot_is_plain : dot_S50000x128_S128x128_S50000x128_1_0_0_1_n_n = DotDims.plain 50000 128 128 := rfl

/-- The reference's dot_general is the dense projection. -/
theorem dot_eq_lin (x : FVec Ideal S50000x128 .f32) (w : FVec Ideal S128x128 .f32) :
    Host.dotGeneral dot_S50000x128_S128x128_S50000x128_1_0_0_1_n_n none x w = linV x w := by
  funext i
  obtain ⟨p, q, rfl⟩ : ∃ (p : Fin 50000) (q : Fin 128), i = ix2 p q := ⟨i 0, i 1, eq_ix2 i⟩
  simp only [Host.dotGeneral, dot_is_plain]
  exact Cert.Bridge.LibMatmul.dotGeneral_apply _ _ x w p q

/-- The reference's message is the edge message with its three factors set out as columns. -/
theorem mul_bcast_eq_msg (hs : FVec Ideal S600000x128 .f32) (a e d : FVec Ideal S600000 .f32)
    (h : S600000.ShapeCasts S600000x1) :
    mulf hs (broadcastInDim S600000x128 ![0, 1] bcast_S600000x1_S600000x128_0_1
      (broadcastInDim S600000x1 ![0] bcast_S600000_S600000x1_0 (mulf (mulf a e) d)))
    = msgV hs (shapeCast S600000x1 a h) (shapeCast S600000x1 e h) (shapeCast S600000x1 d h) := by
  funext i
  obtain ⟨p, q, rfl⟩ : ∃ (p : Fin 600000) (q : Fin 128), i = ix2 p q := ⟨i 0, i 1, eq_ix2 i⟩
  show hs (ix2 p q) * _ = hs (ix2 p q) * ((shapeCast S600000x1 a h (ix2 p (0 : Fin 1)) * shapeCast S600000x1 e h (ix2 p (0 : Fin 1)))
    * shapeCast S600000x1 d h (ix2 p (0 : Fin 1)))
  rw [bcast_col_mat, bcast_vec_col, Cert.Lib.UnitAxis.shapeCast_a_a1_apply, Cert.Lib.UnitAxis.shapeCast_a_a1_apply,
    Cert.Lib.UnitAxis.shapeCast_a_a1_apply]
  rfl

/-- The reference's node update (before the clamp) is the node update with the degree factor a column and the bias a row. -/
theorem add_bcast_eq_fin (agg hh : FVec Ideal S50000x128 .f32) (dv : FVec Ideal S50000 .f32) (b : FVec Ideal S128 .f32)
    (h1 : S50000.ShapeCasts S50000x1) (h2 : S128.ShapeCasts S1x128) :
    addf (addf agg (mulf hh (broadcastInDim S50000x128 ![0, 1] bcast_S50000x1_S50000x128_0_1
        (broadcastInDim S50000x1 ![0] bcast_S50000_S50000x1_0 (mulf dv dv)))))
      (broadcastInDim S50000x128 ![0, 1] bcast_S1x128_S50000x128_0_1 (broadcastInDim S1x128 ![1] bcast_S128_S1x128_1 b))
    = finV agg hh (shapeCast S50000x1 dv h1) (shapeCast S1x128 b h2) := by
  funext i
  obtain ⟨p, q, rfl⟩ : ∃ (p : Fin 50000) (q : Fin 128), i = ix2 p q := ⟨i 0, i 1, eq_ix2 i⟩
  show (agg (ix2 p q) + hh (ix2 p q) * _) + _ = (agg (ix2 p q) + hh (ix2 p q)
    * (shapeCast S50000x1 dv h1 (ix2 p (0 : Fin 1)) * shapeCast S50000x1 dv h1 (ix2 p (0 : Fin 1)))) + shapeCast S1x128 b h2 (ix2 (0 : Fin 1) q)
  rw [bcast_col_mat, bcast_vec_col, bcast_row_mat, bcast_vec_row, Cert.Lib.UnitAxis.shapeCast_a_a1_apply, shapeCast_a_1a_apply]
  rfl

/-- The same with the clamp at zero. -/
theorem max_add_bcast_eq_finRelu (agg hh : FVec Ideal S50000x128 .f32) (dv : FVec Ideal S50000 .f32) (b : FVec Ideal S128 .f32)
    (h1 : S50000.ShapeCasts S50000x1) (h2 : S128.ShapeCasts S1x128) :
    maximumf (addf (addf agg (mulf hh (broadcastInDim S50000x128 ![0, 1] bcast_S50000x1_S50000x128_0_1
        (broadcastInDim S50000x1 ![0] bcast_S50000_S50000x1_0 (mulf dv dv)))))
      (broadcastInDim S50000x128 ![0, 1] bcast_S1x128_S50000x128_0_1 (broadcastInDim S1x128 ![1] bcast_S128_S1x128_1 b)))
      (broadcastInDim S50000x128 ![] bcast_S_S50000x128 (constant (F := Ideal) S_ .f32 0x00000000#32))
    = finReluV agg hh (shapeCast S50000x1 dv h1) (shapeCast S1x128 b h2) := by
  rw [add_bcast_eq_fin agg hh dv b h1 h2]
  funext i
  show max (finV agg hh _ _ i) _ = max (finV agg hh _ _ i) (Ideal.ofBits .f32 0x00000000#32)
  rw [bcast_scalar _ _ i (fun ax => ax.elim0)]
  rfl

end Cert.ReferenceIdeal.Layer

end
-- ==== Proof.RefValue.lean ====
/-
  The reference's result as two layers of the graph convolution in its own host spelling, and each of its layers equal,
  as one array, to the layer the kernel program computes: its dot_general is the kernel's dense projection, its
  broadcast products are the kernel's message and node update (the three identities of the module before this one),
  and the host operations the two programs share (the degree scatter, the normaliser's select, the index wrap, the two
  gathers, the message scatter) are the same functions applied to the same arrays.
-/
import proofs.«140400_j29326036697585_2_alg».proof.Proof.Gen.ReferenceIdeal.Run
import proofs.«140400_j29326036697585_2_alg».proof.Proof.RefLayer
import proofs.«140400_j29326036697585_2_alg».proof.Proof.HostStages

set_option maxRecDepth 16384

noncomputable section

namespace Cert.ReferenceIdeal.Layer

open Idealize.ShloMosaic Idealize.ShloMosaic.TcCoe Idealize.SL.Sem Cert.ReferenceIdeal Cert.ReferenceIdeal.Gen

/-! ## One layer in the reference's spelling -/

/-- Row 0 of the edge list. -/
def rSrc (e : (⟨S2x600000, .i32⟩ : BufTy).Contents (Elt Ideal)) : (⟨S600000, .i32⟩ : BufTy).Contents (Elt Ideal) :=
  shapeCast S600000 (extractStridedSlice S1x600000 ![0, 0] e slices_S2x600000_S1x600000_0_0) shapeCasts_S1x600000_S600000
/-- Row 1 of the edge list. -/
def rDst (e : (⟨S2x600000, .i32⟩ : BufTy).Contents (Elt Ideal)) : (⟨S600000, .i32⟩ : BufTy).Contents (Elt Ideal) :=
  shapeCast S600000 (extractStridedSlice S1x600000 ![1, 0] e slices_S2x600000_S1x600000_1_0) shapeCasts_S1x600000_S600000

/-- The weighted in-degree plus 1. -/
def rDeg (dst : (⟨S600000, .i32⟩ : BufTy).Contents (Elt Ideal)) (ew : FVec Ideal S600000 .f32) : FVec Ideal S50000 .f32 :=
  addf (Host.scatterAdd scatter_S50000_S600000x1_S600000_n_0_0_1 (broadcastInDim S50000 ![] bcast_S_S50000 (constant (F := Ideal) S_ .f32 0x00000000#32))
      (broadcastInDim S600000x1 ![0] bcast_S600000_S600000x1_0 dst) ew)
    (broadcastInDim S50000 ![] bcast_S_S50000 (constant (F := Ideal) S_ .f32 0x3F800000#32))

/-- The normaliser deg^(-1/2) where deg > 0, else 0. -/
def rDinv (dst : (⟨S600000, .i32⟩ : BufTy).Contents (Elt Ideal)) (ew : FVec Ideal S600000 .f32) : FVec Ideal S50000 .f32 :=
  select (cmpf .ogt (rDeg dst ew) (broadcastInDim S50000 ![] bcast_S_S50000 (constant (F := Ideal) S_ .f32 0x00000000#32)))
    (Host.rsqrt (F := Ideal) (s := S50000) (φ := .f32) (rDeg dst ew)) (broadcastInDim S50000 ![] bcast_S_S50000 (id (constant (F := Ideal) S_ .f32 0x00000000#32)))

/-- Node indices made non-negative, as gather indices. -/
def rWrap (s : (⟨S600000, .i32⟩ : BufTy).Contents (Elt Ideal)) : (⟨S600000x1, .i32⟩ : BufTy).Contents (Elt Ideal) :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 50000#32))) s)

/-- One layer before the clamp, as the reference writes it. -/
def rCore (x : FVec Ideal S50000x128 .f32) (w : FVec Ideal S128x128 .f32) (b : FVec Ideal S128 .f32) (src dst : (⟨S600000, .i32⟩ : BufTy).Contents (Elt Ideal)) (ew : FVec Ideal S600000 .f32) :
    FVec Ideal S50000x128 .f32 :=
  addf (addf
      (Host.scatterAdd scatter_S50000x128_S600000x1_S600000x128_1_0_0_1 (broadcastInDim S50000x128 ![] bcast_S_S50000x128 (constant (F := Ideal) S_ .f32 0x00000000#32))
        (broadcastInDim S600000x1 ![0] bcast_S600000_S600000x1_0 dst)
        (mulf (Host.gather gather_S50000x128_S600000x1_S600000x128_1_0_n_n_0_1_1128
            (Host.dotGeneral dot_S50000x128_S128x128_S50000x128_1_0_0_1_n_n none x w) (rWrap src))
          (broadcastInDim S600000x128 ![0, 1] bcast_S600000x1_S600000x128_0_1 (broadcastInDim S600000x1 ![0] bcast_S600000_S600000x1_0
            (mulf (mulf (Host.gather gather_S50000_S600000x1_S600000_n_0_n_n_0_1_1 (rDinv dst ew) (rWrap src)) ew)
              (Host.gather gather_S50000_S600000x1_S600000_n_0_n_n_0_1_1 (rDinv dst ew) (rWrap dst)))))))
      (mulf (Host.dotGeneral dot_S50000x128_S128x128_S50000x128_1_0_0_1_n_n none x w)
        (broadcastInDim S50000x128 ![0, 1] bcast_S50000x1_S50000x128_0_1 (broadcastInDim S50000x1 ![0] bcast_S50000_S50000x1_0
          (mulf (rDinv dst ew) (rDinv dst ew))))))
    (broadcastInDim S50000x128 ![0, 1] bcast_S1x128_S50000x128_0_1 (broadcastInDim S1x128 ![1] bcast_S128_S1x128_1 b))

/-- One layer clamped at zero, as the reference writes it. -/
def rRelu (x : FVec Ideal S50000x128 .f32) (w : FVec Ideal S128x128 .f32) (b : FVec Ideal S128 .f32) (src dst : (⟨S600000, .i32⟩ : BufTy).Contents (Elt Ideal)) (ew : FVec Ideal S600000 .f32) :
    FVec Ideal S50000x128 .f32 :=
  maximumf (rCore x w b src dst ew) (broadcastInDim S50000x128 ![] bcast_S_S50000x128 (constant (F := Ideal) S_ .f32 0x00000000#32))

/-! ## The reference's result is two such layers -/

set_option maxRecDepth 16384 in
/-- The composed term of the reference's run, folded into its two layers. -/
theorem res_eq_layers (m : (ℓ : Loc nD τ sig) → Buf (Elt Ideal) ℓ) (c : Dev nD) :
    Cert.ReferenceIdeal.Value.res_main_v98 (F := Ideal) m c
      = rCore (rRelu (m ((c.tc : Thread nD τ).loc main_arg0)) (m ((c.tc : Thread nD τ).loc main_arg3)) (m ((c.tc : Thread nD τ).loc main_arg4))
            (rSrc (m ((c.tc : Thread nD τ).loc main_arg1))) (rDst (m ((c.tc : Thread nD τ).loc main_arg1))) (m ((c.tc : Thread nD τ).loc main_arg2)))
          (m ((c.tc : Thread nD τ).loc main_arg5)) (m ((c.tc : Thread nD τ).loc main_arg6))
          (rSrc (m ((c.tc : Thread nD τ).loc main_arg1))) (rDst (m ((c.tc : Thread nD τ).loc main_arg1))) (m ((c.tc : Thread nD τ).loc main_arg2)) := by
  unfold Cert.ReferenceIdeal.Value.res_main_v98 rCore rRelu rCore rDinv rDeg rWrap rSrc rDst
  rfl

/-! ## Each layer is the kernel program's layer -/

/-- The clamped layer. -/
theorem rRelu_eq (x : FVec Ideal S50000x128 .f32) (w : FVec Ideal S128x128 .f32) (b : FVec Ideal S128 .f32) (src dst : (⟨S600000, .i32⟩ : BufTy).Contents (Elt Ideal)) (ew : FVec Ideal S600000 .f32) :
    rRelu x w b src dst ew = Cert.KernelIdeal.Layer.layerRelu x w b src dst ew := by
  unfold rRelu rCore
  rw [dot_eq_lin,
    mul_bcast_eq_msg _ _ _ _ Cert.KernelIdeal.Gen.shapeCasts_S600000_S600000x1,
    max_add_bcast_eq_finRelu _ _ _ _ Cert.KernelIdeal.Gen.shapeCasts_S50000_S50000x1 Cert.KernelIdeal.Gen.shapeCasts_S128_S1x128]
  rfl

/-- The layer without the clamp. -/
theorem rCore_eq (x : FVec Ideal S50000x128 .f32) (w : FVec Ideal S128x128 .f32) (b : FVec Ideal S128 .f32) (src dst : (⟨S600000, .i32⟩ : BufTy).Contents (Elt Ideal)) (ew : FVec Ideal S600000 .f32) :
    rCore x w b src dst ew = Cert.KernelIdeal.Layer.layerPlain x w b src dst ew := by
  unfold rCore
  rw [dot_eq_lin,
    mul_bcast_eq_msg _ _ _ _ Cert.KernelIdeal.Gen.shapeCasts_S600000_S600000x1,
    add_bcast_eq_fin _ _ _ _ Cert.KernelIdeal.Gen.shapeCasts_S50000_S50000x1 Cert.KernelIdeal.Gen.shapeCasts_S128_S1x128]
  rfl

/-- The two rows of the edge list are read the same way by both programs. -/
theorem rSrc_eq (e : (⟨S2x600000, .i32⟩ : BufTy).Contents (Elt Ideal)) : rSrc e = Cert.KernelIdeal.Layer.edgeSrc e := rfl
theorem rDst_eq (e : (⟨S2x600000, .i32⟩ : BufTy).Contents (Elt Ideal)) : rDst e = Cert.KernelIdeal.Layer.edgeDst e := rfl

end Cert.ReferenceIdeal.Layer

end
-- ==== Proof.lean ====
/-
  A two-layer graph convolution, out = D^(-1/2) (A + I) D^(-1/2) (x · W) + b per layer with a clamp at zero between the
  layers, computed by a program of six kernel regions among host operations, against the same function written with
  host operations only. On the extended reals the two programs are one function of their arguments, operation by
  operation: the dense projection of a 5000-row block is the block of the whole product; the edge message
  h[src] · ((dinv[src] · w) · dinv[dst]) and the node update (agg + h · dinv²) + b are pointwise, with their factors
  associated the same way in both programs; the degree sums, the normaliser's select, the index wrap, the gathers and the
  scatter-adds are the same host operations on both sides. Nothing is rearranged, so no input needs to be finite for
  the two results to agree, and the precondition is never opened.

  The three frames: the two kernel programs' frames are the generated ones; the reference has no kernel and its frame
  is its run with the result dropped. The ideal pass rewrote nothing, so "preserves" is trivial. For the value claim the
  kernel program's run names its result array as the fold of its fifteen segments, that fold read at the result is two
  layers of the arguments, and the reference's composed result is the same two layers.
-/
import proofs.«140400_j29326036697585_2_alg».proof.Defs
import proofs.«140400_j29326036697585_2_alg».proof.Proof.Gen.Kernel
import proofs.«140400_j29326036697585_2_alg».proof.Proof.Gen.Kernel.Skeleton
import proofs.«140400_j29326036697585_2_alg».proof.Proof.Gen.Kernel.Launch
import proofs.«140400_j29326036697585_2_alg».proof.Proof.Gen.Kernel.Points
import proofs.«140400_j29326036697585_2_alg».proof.Proof.Gen.Kernel.Frame
import proofs.«140400_j29326036697585_2_alg».proof.Proof.Gen.KernelIdeal
import proofs.«140400_j29326036697585_2_alg».proof.Proof.Gen.KernelIdeal.Skeleton
import proofs.«140400_j29326036697585_2_alg».proof.Proof.Gen.KernelIdeal.Launch
import proofs.«140400_j29326036697585_2_alg».proof.Proof.Gen.KernelIdeal.Points
import proofs.«140400_j29326036697585_2_alg».proof.Proof.Gen.KernelIdeal.Frame
import proofs.«140400_j29326036697585_2_alg».proof.Proof.Gen.ReferenceIdeal
import proofs.«140400_j29326036697585_2_alg».proof.Proof.Gen.Pre_finite_inputs
import proofs.«140400_j29326036697585_2_alg».proof.Proof.Gen.ReferenceIdeal.Run
import proofs.«140400_j29326036697585_2_alg».proof.Proof.Gen.ReferenceIdeal.Read
import proofs.«140400_j29326036697585_2_alg».proof.Proof.RunNamed
import proofs.«140400_j29326036697585_2_alg».proof.Proof.KernelValue
import proofs.«140400_j29326036697585_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the seven arguments both programs end with the same result array: two layers of the
    graph convolution of the arguments, the first clamped at zero. -/
theorem algebraic : Cert.algebraic_KernelIdeal_ReferenceIdeal := by
  intro m ρ m' ρ' _ hagree
  refine ⟨fun c => Cert.KernelIdeal.Layer.layerPlain
      (Cert.KernelIdeal.Layer.layerRelu (m ((c.tc : Thread Cert.KernelIdeal.nD Cert.KernelIdeal.τ).loc Cert.KernelIdeal.main_arg0))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (Cert.KernelIdeal.Layer.edgeSrc (m ((c.tc : Thread Cert.KernelIdeal.nD Cert.KernelIdeal.τ).loc Cert.KernelIdeal.main_arg1)))
        (Cert.KernelIdeal.Layer.edgeDst (m ((c.tc : Thread Cert.KernelIdeal.nD Cert.KernelIdeal.τ).loc Cert.KernelIdeal.main_arg1)))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (Cert.KernelIdeal.Layer.edgeSrc (m ((c.tc : Thread Cert.KernelIdeal.nD Cert.KernelIdeal.τ).loc Cert.KernelIdeal.main_arg1)))
      (Cert.KernelIdeal.Layer.edgeDst (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Layer.result_value m ρ c), (h c).2⟩)
      (Cert.KernelIdeal.Layer.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Layer.res_eq_layers, Cert.ReferenceIdeal.Layer.rCore_eq, Cert.ReferenceIdeal.Layer.rRelu_eq,
      Cert.ReferenceIdeal.Layer.rSrc_eq, Cert.ReferenceIdeal.Layer.rDst_eq,
      (hagree c).1, (hagree c).2.1, (hagree c).2.2.1, (hagree c).2.2.2.1, (hagree c).2.2.2.2.1, (hagree c).2.2.2.2.2.1,
      (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
